-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x40000x1024 : Shape := ⟨3, ![2, 40000, 1024]⟩
abbrev S1024x512 : Shape := ⟨2, ![1024, 512]⟩
abbrev S512 : Shape := ⟨1, ![512]⟩
abbrev S512x384 : Shape := ⟨2, ![512, 384]⟩
abbrev S384 : Shape := ⟨1, ![384]⟩
abbrev S384x1 : Shape := ⟨2, ![384, 1]⟩
abbrev S1 : Shape := ⟨1, ![1]⟩
abbrev S512x2 : Shape := ⟨2, ![512, 2]⟩
abbrev S2 : Shape := ⟨1, ![2]⟩
abbrev S_ : Shape := ⟨0, ![]⟩

class Facts : Prop where
  bcast_S_S2x40000x1024 : S_.BroadcastsInDim S2x40000x1024 (![] : Fin 0 → Fin S2x40000x1024.rank)
  reducesTo_S2x40000x1024_S_d0_1_2 : S2x40000x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x384 : S_.BroadcastsInDim S512x384 (![] : Fin 0 → Fin S512x384.rank)
  reducesTo_S512x384_S_d0_1 : S512x384.ReducesTo [0, 1] S_
  bcast_S_S384 : S_.BroadcastsInDim S384 (![] : Fin 0 → Fin S384.rank)
  reducesTo_S384_S_d0 : S384.ReducesTo [0] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S384x1 .f32) (main_arg8 : FVec F S1 .f32) (main_arg9 : FVec F S512x2 .f32) (main_arg10 : FVec F S2 .f32) (main_v33 : IVec S_ 1) : IVec S_ 1 :=
  let main_v34 : FVec F S384x1 .f32 := Host.absf main_arg7
  let main_cst_12 : FVec F S_ .f32 := constant S_ .f32 0x7F800000#32
  let main_v35 : FVec F S384x1 .f32 := broadcastInDim S384x1 ![] bcast_S_S384x1 main_cst_12
  let main_v36 : IVec S384x1 1 := cmpf .olt main_v34 main_v35
  let main_c_13 : IVec S_ 1 := constantI S_ 1 1#1
  let main_v37 : IVec S_ 1 := (fun x v => Host.reduce IntOp.andi x v reducesTo_S384x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S512x2 .f32 := Host.absf main_arg9
  let main_cst_16 : FVec F S_ .f32 := constant S_ .f32 0x7F800000#32
  let main_v45 : FVec F S512x2 .f32 := broadcastInDim S512x2 ![] bcast_S_S512x2 main_cst_16
  let main_v46 : IVec S512x2 1 := cmpf .olt main_v44 main_v45
  let main_c_17 : IVec S_ 1 := constantI S_ 1 1#1
  let main_v47 : IVec S_ 1 := (fun x v => Host.reduce IntOp.andi x v reducesTo_S512x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S384 .f32) (main_arg5 : FVec F S512x384 .f32) (main_arg6 : FVec F S384 .f32) (main_arg7 : FVec F S384x1 .f32) (main_arg8 : FVec F S1 .f32) (main_arg9 : FVec F S512x2 .f32) (main_arg10 : FVec F S2 .f32) (main_v13 : IVec S_ 1) (main_v16 : IVec S512x384 1) : IVec S_ 1 :=
  let main_c_5 : IVec S_ 1 := constantI S_ 1 1#1
  let main_v17 : IVec S_ 1 := (fun x v => Host.reduce IntOp.andi x v reducesTo_S512x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S512x384 .f32 := Host.absf main_arg5
  let main_cst_8 : FVec F S_ .f32 := constant S_ .f32 0x7F800000#32
  let main_v25 : FVec F S512x384 .f32 := broadcastInDim S512x384 ![] bcast_S_S512x384 main_cst_8
  let main_v26 : IVec S512x384 1 := cmpf .olt main_v24 main_v25
  let main_c_9 : IVec S_ 1 := constantI S_ 1 1#1
  let main_v27 : IVec S_ 1 := (fun x v => Host.reduce IntOp.andi x v reducesTo_S512x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x40000x1024 .f32) (main_arg1 : FVec F S1024x512 .f32) (main_arg2 : FVec F S512 .f32) (main_arg3 : FVec F S512x384 .f32) (main_arg4 : FVec F S384 .f32) (main_arg5 : FVec F S512x384 .f32) (main_arg6 : FVec F S384 .f32) (main_arg7 : FVec F S384x1 .f32) (main_arg8 : FVec F S1 .f32) (main_arg9 : FVec F S512x2 .f32) (main_arg10 : FVec F S2 .f32) : IVec S_ 1 :=
  let main_v0 : FVec F S2x40000x1024 .f32 := Host.absf main_arg0
  let main_cst : FVec F S_ .f32 := constant S_ .f32 0x7F800000#32
  let main_v1 : FVec F S2x40000x1024 .f32 := broadcastInDim S2x40000x1024 ![] bcast_S_S2x40000x1024 main_cst
  let main_v2 : IVec S2x40000x1024 1 := cmpf .olt main_v0 main_v1
  let main_c : IVec S_ 1 := constantI S_ 1 1#1
  let main_v3 : IVec S_ 1 := (fun x v => Host.reduce IntOp.andi x v reducesTo_S2x40000x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x384 .f32 := Host.absf main_arg3
  let main_cst_4 : FVec F S_ .f32 := constant S_ .f32 0x7F800000#32
  let main_v15 : FVec F S512x384 .f32 := broadcastInDim S512x384 ![] bcast_S_S512x384 main_cst_4
  let main_v16 : IVec S512x384 1 := cmpf .olt main_v14 main_v15
  fn_part1 (F := F) main_arg4 main_arg5 main_arg6 main_arg7 main_arg8 main_arg9 main_arg10 main_v13 main_v16
-- ==== Kernel.lean ====
abbrev S2x40000x1024 : Shape := ⟨3, ![2, 40000, 1024]⟩
abbrev S1024x512 : Shape := ⟨2, ![1024, 512]⟩
abbrev S512 : Shape := ⟨1, ![512]⟩
abbrev S512x384 : Shape := ⟨2, ![512, 384]⟩
abbrev S384 : Shape := ⟨1, ![384]⟩
abbrev S384x1 : Shape := ⟨2, ![384, 1]⟩
abbrev S1 : Shape := ⟨1, ![1]⟩
abbrev S512x2 : Shape := ⟨2, ![512, 2]⟩
abbrev S2 : Shape := ⟨1, ![2]⟩
abbrev S1x512 : Shape := ⟨2, ![1, 512]⟩
abbrev S1x384 : Shape := ⟨2, ![1, 384]⟩
abbrev S1x1 : Shape := ⟨2, ![1, 1]⟩
abbrev S1x2 : Shape := ⟨2, ![1, 2]⟩
abbrev S2x1x2 : Shape := ⟨3, ![2, 1, 2]⟩
abbrev S1x1600x1024 : Shape := ⟨3, ![1, 1600, 1024]⟩
abbrev S1x1x2 : Shape := ⟨3, ![1, 1, 2]⟩
abbrev S1600x1024 : Shape := ⟨2, ![1600, 1024]⟩
abbrev S1600x512 : Shape := ⟨2, ![1600, 512]⟩
abbrev S1600x384 : Shape := ⟨2, ![1600, 384]⟩
abbrev S1600x1 : Shape := ⟨2, ![1600, 1]⟩
abbrev S2x2 : Shape := ⟨2, ![2, 2]⟩

abbrev nBuf : Space → Nat
  | .hbm => 22
  | .vmem => 17
  | .smem => 0
  | _ => 0

abbrev bufTy : (tb : Table) → Fin (tcTables nBuf tb) → BufTy
  | .hbm, ⟨0, _⟩ => ⟨S2x40000x1024, .f32⟩
  | .hbm, ⟨1, _⟩ => ⟨S1024x512, .f32⟩
  | .hbm, ⟨2, _⟩ => ⟨S512, .f32⟩
  | .hbm, ⟨3, _⟩ => ⟨S512x384, .f32⟩
  | .hbm, ⟨4, _⟩ => ⟨S384, .f32⟩
  | .hbm, ⟨5, _⟩ => ⟨S512x384, .f32⟩
  | .hbm, ⟨6, _⟩ => ⟨S384, .f32⟩
  | .hbm, ⟨7, _⟩ => ⟨S384x1, .f32⟩
  | .hbm, ⟨8, _⟩ => ⟨S1, .f32⟩
  | .hbm, ⟨9, _⟩ => ⟨S512x2, .f32⟩
  | .hbm, ⟨10, _⟩ => ⟨S2, .f32⟩
  | .hbm, ⟨11, _⟩ => ⟨S1024x512, .bf16⟩
  | .hbm, ⟨12, _⟩ => ⟨S512x384, .bf16⟩
  | .hbm, ⟨13, _⟩ => ⟨S512x384, .bf16⟩
  | .hbm, ⟨14, _⟩ => ⟨S384x1, .bf16⟩
  | .hbm, ⟨15, _⟩ => ⟨S1x512, .f32⟩
  | .hbm, ⟨16, _⟩ => ⟨S1x384, .f32⟩
  | .hbm, ⟨17, _⟩ => ⟨S1x384, .f32⟩
  | .hbm, ⟨18, _⟩ => ⟨S1x1, .f32⟩
  | .hbm, ⟨19, _⟩ => ⟨S1x2, .f32⟩
  | .hbm, ⟨20, _⟩ => ⟨S2x1x2, .f32⟩
  | .hbm, ⟨21, _⟩ => ⟨S2x2, .f32⟩
  | .local _ .vmem, ⟨0, _⟩ => ⟨S1x1600x1024, .f32⟩
  | .local _ .vmem, ⟨1, _⟩ => ⟨S1x1600x1024, .f32⟩
  | .local _ .vmem, ⟨2, _⟩ => ⟨S1024x512, .bf16⟩
  | .local _ .vmem, ⟨3, _⟩ => ⟨S1x512, .f32⟩
  | .local _ .vmem, ⟨4, _⟩ => ⟨S512x384, .bf16⟩
  | .local _ .vmem, ⟨5, _⟩ => ⟨S1x384, .f32⟩
  | .local _ .vmem, ⟨6, _⟩ => ⟨S512x384, .bf16⟩
  | .local _ .vmem, ⟨7, _⟩ => ⟨S1x384, .f32⟩
  | .local _ .vmem, ⟨8, _⟩ => ⟨S384x1, .bf16⟩
  | .local _ .vmem, ⟨9, _⟩ => ⟨S1x1, .f32⟩
  | .local _ .vmem, ⟨10, _⟩ => ⟨S512x2, .f32⟩
  | .local _ .vmem, ⟨11, _⟩ => ⟨S1x2, .f32⟩
  | .local _ .vmem, ⟨12, _⟩ => ⟨S1x1x2, .f32⟩
  | .local _ .vmem, ⟨13, _⟩ => ⟨S1x1x2, .f32⟩
  | .local _ .vmem, ⟨14, _⟩ => ⟨S1x512, .f32⟩
  | .local _ .vmem, ⟨15, _⟩ => ⟨S1x1, .f32⟩
  | .local _ .vmem, ⟨16, _⟩ => ⟨S1x1, .f32⟩
  | _, _ => ⟨S2x40000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v70 : BitVec 1 := Scalar.cmpi .eq arg1 c24_i32
  let v71 : BitVec 32 := Scalar.extui v70
  let c0_i32_38 : BitVec 32 := 0#32
  let v72 : BitVec 1 := Scalar.cmpi .ne v71 c0_i32_38
  v72

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1600x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  bitsLt_bf16_f32 : FTy.bits .bf16 < FTy.bits .f32
  shapeCasts_S512_S1x512 : S512.ShapeCasts S1x512
  shapeCasts_S384_S1x384 : S384.ShapeCasts S1x384
  shapeCasts_S1_S1x1 : S1.ShapeCasts S1x1
  shapeCasts_S2_S1x2 : S2.ShapeCasts S1x2
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1600x1024_S1x1600x1024_0_0_0 : ∀ a, (![0, 0, 0] : Fin 3 → Nat) a + S1x1600x1024.size a ≤ S1x1600x1024.size a
  h_S1x1600x1024 : 0 < S1x1600x1024.numel
  shapeCasts_S1x1600x1024_S1600x1024 : S1x1600x1024.ShapeCasts S1600x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x512_S1600x512 : S1x512.Broadcasts S1600x512
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1600x384 : S1x384.Broadcasts S1600x384
  inb_S384x1_S384x1_0_0 : ∀ a, (![0, 0] : Fin 2 → Nat) a + S384x1.size a ≤ S384x1.size a
  h_S384x1 : 0 < S384x1.numel
  shapeCasts_S384x1_S384x1 : S384x1.ShapeCasts S384x1
  broadcasts_S1x1_S1600x1 : S1x1.Broadcasts S1600x1
  reduces_S1600x1_S1 : S1600x1.Reduces [0] S1
  broadcasts_S1x1_S1x512 : S1x1.Broadcasts S1x512
  inb_S512x2_S512x2_0_0 : ∀ a, (![0, 0] : Fin 2 → Nat) a + S512x2.size a ≤ S512x2.size a
  h_S512x2 : 0 < S512x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  shapeCasts_S2x1x2_S2x2 : S2x1x2.ShapeCasts S2x2
  dot_S1600x1024_S1024x512_S1600x512_1_0_0_1_n_n_wf : DotDims.WF S1600x1024 S1024x512 S1600x512 [1] [0] [0] [1] [] []
  dot_S1600x512_S512x384_S1600x384_1_0_0_1_n_n_wf : DotDims.WF S1600x512 S512x384 S1600x384 [1] [0] [0] [1] [] []
  dot_S1600x384_S384x1_S1600x1_1_0_0_1_n_n_wf : DotDims.WF S1600x384 S384x1 S1600x1 [1] [0] [0] [1] [] []
  dot_S1600x1_S1600x512_S1x512_0_0_1_1_n_n_wf : DotDims.WF S1600x1 S1600x512 S1x512 [0] [0] [1] [1] [] []
  dot_S1x512_S512x2_S1x2_1_0_0_1_n_n_wf : DotDims.WF S1x512 S512x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1600x1024.size a ≤ S2x40000x1024.size a
  hwx0_0 : ∀ i : grid0.Coords, EltTy.bits .f32 = 32 ∨ (Rect.block (s := S2x40000x1024) S1x1600x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .bf16 = 32 ∨ (Rect.block (s := S512x384) S512x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x384.size a ≤ S512x384.size a
  hwx0_5 : ∀ i : grid0.Coords, EltTy.bits .bf16 = 32 ∨ (Rect.block (s := S512x384) S512x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x1.size a ≤ S384x1.size a
  hwx0_7 : ∀ i : grid0.Coords, EltTy.bits .bf16 = 32 ∨ (Rect.block (s := S384x1) S384x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2.size a ≤ S512x2.size a
  hwx0_9 : ∀ i : grid0.Coords, EltTy.bits .f32 = 32 ∨ (Rect.block (s := S512x2) S512x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x2.size a ≤ S2x1x2.size a
  hwx0_11 : ∀ i : grid0.Coords, EltTy.bits .f32 = 32 ∨ (Rect.block (s := S2x1x2) S1x1x2.size (cc0_transform_11 i) (hinb0_11 i)).WholeWords (EltTy.packing .f32)

variable [Facts₀]

def dot_S1600x1024_S1024x512_S1600x512_1_0_0_1_n_n : DotDims S1600x1024 S1024x512 S1600x512 where
  lhsContracting := [1]
  rhsContracting := [0]
  lhsNonContracting := [0]
  rhsNonContracting := [1]
  lhsBatch := []
  rhsBatch := []
  wf := dot_S1600x1024_S1024x512_S1600x512_1_0_0_1_n_n_wf
def dot_S1600x512_S512x384_S1600x384_1_0_0_1_n_n : DotDims S1600x512 S512x384 S1600x384 where
  lhsContracting := [1]
  rhsContracting := [0]
  lhsNonContracting := [0]
  rhsNonContracting := [1]
  lhsBatch := []
  rhsBatch := []
  wf := dot_S1600x512_S512x384_S1600x384_1_0_0_1_n_n_wf
def dot_S1600x384_S384x1_S1600x1_1_0_0_1_n_n : DotDims S1600x384 S384x1 S1600x1 where
  lhsContracting := [1]
  rhsContracting := [0]
  lhsNonContracting := [0]
  rhsNonContracting := [1]
  lhsBatch := []
  rhsBatch := []
  wf := dot_S1600x384_S384x1_S1600x1_1_0_0_1_n_n_wf
def dot_S1600x1_S1600x512_S1x512_0_0_1_1_n_n : DotDims S1600x1 S1600x512 S1x512 where
  lhsContracting := [0]
  rhsContracting := [0]
  lhsNonContracting := [1]
  rhsNonContracting := [1]
  lhsBatch := []
  rhsBatch := []
  wf := dot_S1600x1_S1600x512_S1x512_0_0_1_1_n_n_wf
def dot_S1x512_S512x2_S1x2_1_0_0_1_n_n : DotDims S1x512 S512x2 S1x2 where
  lhsContracting := [1]
  rhsContracting := [0]
  lhsNonContracting := [0]
  rhsNonContracting := [1]
  lhsBatch := []
  rhsBatch := []
  wf := dot_S1x512_S512x2_S1x2_1_0_0_1_n_n_wf

abbrev win0_0 : Pipeline.Window sig grid0 :=
  Pipeline.Window.ofSpec (Memref.whole main_arg0) S1x1600x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S384x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x1x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S2x40000x1024 : Shape := ⟨3, ![2, 40000, 1024]⟩
abbrev S1024x512 : Shape := ⟨2, ![1024, 512]⟩
abbrev S512 : Shape := ⟨1, ![512]⟩
abbrev S512x384 : Shape := ⟨2, ![512, 384]⟩
abbrev S384 : Shape := ⟨1, ![384]⟩
abbrev S384x1 : Shape := ⟨2, ![384, 1]⟩
abbrev S1 : Shape := ⟨1, ![1]⟩
abbrev S512x2 : Shape := ⟨2, ![512, 2]⟩
abbrev S2 : Shape := ⟨1, ![2]⟩
abbrev S2x40000x512 : Shape := ⟨3, ![2, 40000, 512]⟩
abbrev S1x1x512 : Shape := ⟨3, ![1, 1, 512]⟩
abbrev S_ : Shape := ⟨0, ![]⟩
abbrev S2x40000x384 : Shape := ⟨3, ![2, 40000, 384]⟩
abbrev S1x1x384 : Shape := ⟨3, ![1, 1, 384]⟩
abbrev S2x40000x1 : Shape := ⟨3, ![2, 40000, 1]⟩
abbrev S1x1x1 : Shape := ⟨3, ![1, 1, 1]⟩
abbrev S2x1x40000 : Shape := ⟨3, ![2, 1, 40000]⟩
abbrev S2x1 : Shape := ⟨2, ![2, 1]⟩
abbrev S2x1x1 : Shape := ⟨3, ![2, 1, 1]⟩
abbrev S2x1x512 : Shape := ⟨3, ![2, 1, 512]⟩
abbrev S2x512 : Shape := ⟨2, ![2, 512]⟩
abbrev S2x2 : Shape := ⟨2, ![2, 2]⟩
abbrev S1x2 : Shape := ⟨2, ![1, 2]⟩

abbrev nBuf : Space → Nat
  | .hbm => 61
  | .vmem => 0
  | .smem => 0
  | _ => 0

abbrev bufTy : (tb : Table) → Fin (tcTables nBuf tb) → BufTy
  | .hbm, ⟨0, _⟩ => ⟨S2x40000x1024, .f32⟩
  | .hbm, ⟨1, _⟩ => ⟨S1024x512, .f32⟩
  | .hbm, ⟨2, _⟩ => ⟨S512, .f32⟩
  | .hbm, ⟨3, _⟩ => ⟨S512x384, .f32⟩
  | .hbm, ⟨4, _⟩ => ⟨S384, .f32⟩
  | .hbm, ⟨5, _⟩ => ⟨S512x384, .f32⟩
  | .hbm, ⟨6, _⟩ => ⟨S384, .f32⟩
  | .hbm, ⟨7, _⟩ => ⟨S384x1, .f32⟩
  | .hbm, ⟨8, _⟩ => ⟨S1, .f32⟩
  | .hbm, ⟨9, _⟩ => ⟨S512x2, .f32⟩
  | .hbm, ⟨10, _⟩ => ⟨S2, .f32⟩
  | .hbm, ⟨11, _⟩ => ⟨S2x40000x512, .f32⟩
  | .hbm, ⟨12, _⟩ => ⟨S1x1x512, .f32⟩
  | .hbm, ⟨13, _⟩ => ⟨S2x40000x512, .f32⟩
  | .hbm, ⟨14, _⟩ => ⟨S2x40000x512, .f32⟩
  | .hbm, ⟨15, _⟩ => ⟨S_, .f32⟩
  | .hbm, ⟨16, _⟩ => ⟨S2x40000x512, .f32⟩
  | .hbm, ⟨17, _⟩ => ⟨S2x40000x512, .f32⟩
  | .hbm, ⟨18, _⟩ => ⟨S2x40000x384, .f32⟩
  | .hbm, ⟨19, _⟩ => ⟨S1x1x384, .f32⟩
  | .hbm, ⟨20, _⟩ => ⟨S2x40000x384, .f32⟩
  | .hbm, ⟨21, _⟩ => ⟨S2x40000x384, .f32⟩
  | .hbm, ⟨22, _⟩ => ⟨S2x40000x384, .f32⟩
  | .hbm, ⟨23, _⟩ => ⟨S2x40000x384, .f32⟩
  | .hbm, ⟨24, _⟩ => ⟨S1x1x384, .f32⟩
  | .hbm, ⟨25, _⟩ => ⟨S2x40000x384, .f32⟩
  | .hbm, ⟨26, _⟩ => ⟨S2x40000x384, .f32⟩
  | .hbm, ⟨27, _⟩ => ⟨S2x40000x384, .f32⟩
  | .hbm, ⟨28, _⟩ => ⟨S2x40000x384, .f32⟩
  | .hbm, ⟨29, _⟩ => ⟨S_, .f32⟩
  | .hbm, ⟨30, _⟩ => ⟨S2x40000x384, .f32⟩
  | .hbm, ⟨31, _⟩ => ⟨S2x40000x384, .f32⟩
  | .hbm, ⟨32, _⟩ => ⟨S_, .f32⟩
  | .hbm, ⟨33, _⟩ => ⟨S2x40000x384, .f32⟩
  | .hbm, ⟨34, _⟩ => ⟨S2x40000x384, .f32⟩
  | .hbm, ⟨35, _⟩ => ⟨S2x40000x384, .f32⟩
  | .hbm, ⟨36, _⟩ => ⟨S2x40000x1, .f32⟩
  | .hbm, ⟨37, _⟩ => ⟨S1x1x1, .f32⟩
  | .hbm, ⟨38, _⟩ => ⟨S2x40000x1, .f32⟩
  | .hbm, ⟨39, _⟩ => ⟨S2x40000x1, .f32⟩
  | .hbm, ⟨40, _⟩ => ⟨S2x1x40000, .f32⟩
  | .hbm, ⟨41, _⟩ => ⟨S_, .f32⟩
  | .hbm, ⟨42, _⟩ => ⟨S2x1, .f32⟩
  | .hbm, ⟨43, _⟩ => ⟨S_, .f32⟩
  | .hbm, ⟨44, _⟩ => ⟨S2x1, .f32⟩
  | .hbm, ⟨45, _⟩ => ⟨S2x1, .f32⟩
  | .hbm, ⟨46, _⟩ => ⟨S2x1x1, .f32⟩
  | .hbm, ⟨47, _⟩ => ⟨S2x1x40000, .f32⟩
  | .hbm, ⟨48, _⟩ => ⟨S2x1x40000, .f32⟩
  | .hbm, ⟨49, _⟩ => ⟨S2x1x40000, .f32⟩
  | .hbm, ⟨50, _⟩ => ⟨S_, .f32⟩
  | .hbm, ⟨51, _⟩ => ⟨S2x1, .f32⟩
  | .hbm, ⟨52, _⟩ => ⟨S2x1x1, .f32⟩
  | .hbm, ⟨53, _⟩ => ⟨S2x1x40000, .f32⟩
  | .hbm, ⟨54, _⟩ => ⟨S2x1x40000, .f32⟩
  | .hbm, ⟨55, _⟩ => ⟨S2x1x512, .f32⟩
  | .hbm, ⟨56, _⟩ => ⟨S2x512, .f32⟩
  | .hbm, ⟨57, _⟩ => ⟨S2x2, .f32⟩
  | .hbm, ⟨58, _⟩ => ⟨S1x2, .f32⟩
  | .hbm, ⟨59, _⟩ => ⟨S2x2, .f32⟩
  | .hbm, ⟨60, _⟩ => ⟨S2x2, .f32⟩
  | _, _ => ⟨S2x40000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S2x40000x512_0_1_2 : S1x1x512.BroadcastsInDim S2x40000x512 (![0, 1, 2] : Fin 3 → Fin S2x40000x512.rank)
  bcast_S_S2x40000x512 : S_.BroadcastsInDim S2x40000x512 (![] : Fin 0 → Fin S2x40000x512.rank)
  bcast_S384_S1x1x384_2 : S384.BroadcastsInDim S1x1x384 (![2] : Fin 1 → Fin S1x1x384.rank)
  bcast_S1x1x384_S2x40000x384_0_1_2 : S1x1x384.BroadcastsInDim S2x40000x384 (![0, 1, 2] : Fin 3 → Fin S2x40000x384.rank)
  bcast_S_S2x40000x384 : S_.BroadcastsInDim S2x40000x384 (![] : Fin 0 → Fin S2x40000x384.rank)
  bcast_S1_S1x1x1_2 : S1.BroadcastsInDim S1x1x1 (![2] : Fin 1 → Fin S1x1x1.rank)
  bcast_S1x1x1_S2x40000x1_0_1_2 : S1x1x1.BroadcastsInDim S2x40000x1 (![0, 1, 2] : Fin 3 → Fin S2x40000x1.rank)
  transposes_S2x40000x1_S2x1x40000_0_2_1 : S2x40000x1.Transposes [0, 2, 1] S2x1x40000
  reducesTo_S2x1x40000_S2x1_d2 : S2x1x40000.ReducesTo [2] S2x1
  h_S_ : 0 < S_.numel
  bcast_S_S2x1 : S_.BroadcastsInDim S2x1 (![] : Fin 0 → Fin S2x1.rank)
  bcast_S2x1_S2x1x1_0_1 : S2x1.BroadcastsInDim S2x1x1 (![0, 1] : Fin 2 → Fin S2x1x1.rank)
  bcast_S2x1x1_S2x1x40000_0_1_2 : S2x1x1.BroadcastsInDim S2x1x40000 (![0, 1, 2] : Fin 3 → Fin S2x1x40000.rank)
  shapeCasts_S2x1x512_S2x512 : S2x1x512.ShapeCasts S2x512
  bcast_S2_S1x2_1 : S2.BroadcastsInDim S1x2 (![1] : Fin 1 → Fin S1x2.rank)
  bcast_S1x2_S2x2_0_1 : S1x2.BroadcastsInDim S2x2 (![0, 1] : Fin 2 → Fin S2x2.rank)
  dot_S2x40000x1024_S1024x512_S2x40000x512_2_0_01_1_n_n_wf : DotDims.WF S2x40000x1024 S1024x512 S2x40000x512 [2] [0] [0, 1] [1] [] []
  dot_S2x40000x512_S512x384_S2x40000x384_2_0_01_1_n_n_wf : DotDims.WF S2x40000x512 S512x384 S2x40000x384 [2] [0] [0, 1] [1] [] []
  dot_S2x40000x384_S384x1_S2x40000x1_2_0_01_1_n_n_wf : DotDims.WF S2x40000x384 S384x1 S2x40000x1 [2] [0] [0, 1] [1] [] []
  dot_S2x1x40000_S2x40000x512_S2x1x512_2_1_1_2_0_0_wf : DotDims.WF S2x1x40000 S2x40000x512 S2x1x512 [2] [1] [1] [2] [0] [0]
  dot_S2x512_S512x2_S2x2_1_0_0_1_n_n_wf : DotDims.WF S2x512 S512x2 S2x2 [1] [0] [0] [1] [] []

variable [Facts₀]

def dot_S2x40000x1024_S1024x512_S2x40000x512_2_0_01_1_n_n : DotDims S2x40000x1024 S1024x512 S2x40000x512 where
  lhsContracting := [2]
  rhsContracting := [0]
  lhsNonContracting := [0, 1]
  rhsNonContracting := [1]
  lhsBatch := []
  rhsBatch := []
  wf := dot_S2x40000x1024_S1024x512_S2x40000x512_2_0_01_1_n_n_wf
def dot_S2x40000x512_S512x384_S2x40000x384_2_0_01_1_n_n : DotDims S2x40000x512 S512x384 S2x40000x384 where
  lhsContracting := [2]
  rhsContracting := [0]
  lhsNonContracting := [0, 1]
  rhsNonContracting := [1]
  lhsBatch := []
  rhsBatch := []
  wf := dot_S2x40000x512_S512x384_S2x40000x384_2_0_01_1_n_n_wf
def dot_S2x40000x384_S384x1_S2x40000x1_2_0_01_1_n_n : DotDims S2x40000x384 S384x1 S2x40000x1 where
  lhsContracting := [2]
  rhsContracting := [0]
  lhsNonContracting := [0, 1]
  rhsNonContracting := [1]
  lhsBatch := []
  rhsBatch := []
  wf := dot_S2x40000x384_S384x1_S2x40000x1_2_0_01_1_n_n_wf
def dot_S2x1x40000_S2x40000x512_S2x1x512_2_1_1_2_0_0 : DotDims S2x1x40000 S2x40000x512 S2x1x512 where
  lhsContracting := [2]
  rhsContracting := [1]
  lhsNonContracting := [1]
  rhsNonContracting := [2]
  lhsBatch := [0]
  rhsBatch := [0]
  wf := dot_S2x1x40000_S2x40000x512_S2x1x512_2_1_1_2_0_0_wf
def dot_S2x512_S512x2_S2x2_1_0_0_1_n_n : DotDims S2x512 S512x2 S2x2 where
  lhsContracting := [1]
  rhsContracting := [0]
  lhsNonContracting := [0]
  rhsNonContracting := [1]
  lhsBatch := []
  rhsBatch := []
  wf := dot_S2x512_S512x2_S2x2_1_0_0_1_n_n_wf

class Facts : Prop extends Facts₀ where

variable [Facts]
-- ==== Proof.Pieces.lean ====
/-
  What one run of the kernel's body leaves behind, as values.

  The body is run in three situations: at the first block of a batch (the three carried buffers are reset first, so
  the block starts from −∞, 0 and the zero row), at a middle block (it starts from what the block before left), and at
  the last block (the same update, and then the result row is computed from the updated buffers and stored). In every
  situation each buffer ends at ONE pure function of the blocks the body loaded: the running maximum, the rescaled sum
  of exponentials, the rescaled weighted sums, and at the last block the result row.
-/
import proofs.«157097_j71451075937077_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem acc_first (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
      = k0_pay12 (k0_pay5 x0 x1 x2) (k0_pay6 x0 x1 x2 x3 x4 x5 x6) x7 x8 k0_pay3 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  rw [View.canon_cons_unit_zero (S := S1x512) hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem max_first (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
      = k0_pay13 (k0_pay6 x0 x1 x2 x3 x4 x5 x6) x7 x8 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  rw [View.canon_cons_unit_zero (S := S1x1) hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem sum_first (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
      = k0_pay11 (k0_pay6 x0 x1 x2 x3 x4 x5 x6) x7 x8 k0_pay3 k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  rw [View.canon_cons_unit_zero (S := S1x1) hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem acc_mid (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) (xs0 : Vec F S1x512 .f32) (xs1 : Vec F S1x1 .f32) (xs2 : Vec F S1x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2
      = k0_pay12 (k0_pay5 x0 x1 x2) (k0_pay6 x0 x1 x2 x3 x4 x5 x6) x7 x8 xs1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  rw [View.canon_unit_zero hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem max_mid (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) (xs0 : Vec F S1x512 .f32) (xs1 : Vec F S1x1 .f32) (xs2 : Vec F S1x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2
      = k0_pay13 (k0_pay6 x0 x1 x2 x3 x4 x5 x6) x7 x8 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  rw [View.canon_unit_zero hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem sum_mid (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) (xs0 : Vec F S1x512 .f32) (xs1 : Vec F S1x1 .f32) (xs2 : Vec F S1x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2
      = k0_pay11 (k0_pay6 x0 x1 x2 x3 x4 x5 x6) x7 x8 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  rw [View.canon_unit_zero hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem acc_last (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) (xs0 : Vec F S1x512 .f32) (xs1 : Vec F S1x1 .f32) (xs2 : Vec F S1x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2
      = k0_pay12 (k0_pay5 x0 x1 x2) (k0_pay6 x0 x1 x2 x3 x4 x5 x6) x7 x8 xs1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem max_last (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) (xs0 : Vec F S1x512 .f32) (xs1 : Vec F S1x1 .f32) (xs2 : Vec F S1x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2
      = k0_pay13 (k0_pay6 x0 x1 x2 x3 x4 x5 x6) x7 x8 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem sum_last (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) (xs0 : Vec F S1x512 .f32) (xs1 : Vec F S1x1 .f32) (xs2 : Vec F S1x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2
      = k0_pay11 (k0_pay6 x0 x1 x2 x3 x4 x5 x6) x7 x8 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz2]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

theorem out_last (c : Dev nD) (i : grid0.Coords) (arg2 : Memref sig .tc .vmem S1x1600x1024 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S512x384 .bf16) (harg5 : arg5.IsWhole) (arg6 : Memref sig .tc .vmem S1x384 .f32) (harg6 : arg6.IsWhole) (arg7 : Memref sig .tc .vmem S512x384 .bf16) (harg7 : arg7.IsWhole) (arg8 : Memref sig .tc .vmem S1x384 .f32) (harg8 : arg8.IsWhole) (arg9 : Memref sig .tc .vmem S384x1 .bf16) (harg9 : arg9.IsWhole) (arg10 : Memref sig .tc .vmem S1x1 .f32) (harg10 : arg10.IsWhole) (arg11 : Memref sig .tc .vmem S512x2 .f32) (harg11 : arg11.IsWhole) (arg12 : Memref sig .tc .vmem S1x2 .f32) (harg12 : arg12.IsWhole) (arg13 : Memref sig .tc .vmem S1x1x2 .f32) (harg13 : arg13.IsWhole) (arg14 : Memref sig .tc .vmem S1x512 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1x1600x1024 .f32) (x1 : Vec F S1024x512 .bf16) (x2 : Vec F S1x512 .f32) (x3 : Vec F S512x384 .bf16) (x4 : Vec F S1x384 .f32) (x5 : Vec F S512x384 .bf16) (x6 : Vec F S1x384 .f32) (x7 : Vec F S384x1 .bf16) (x8 : Vec F S1x1 .f32) (x9 : Vec F S512x2 .f32) (x10 : Vec F S1x2 .f32) (xs0 : Vec F S1x512 .f32) (xs1 : Vec F S1x1 .f32) (xs2 : Vec F S1x1 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2
      = k0_pay1 (k0_pay12 (k0_pay5 x0 x1 x2) (k0_pay6 x0 x1 x2 x3 x4 x5 x6) x7 x8 xs1 xs0) (k0_pay11 (k0_pay6 x0 x1 x2 x3 x4 x5 x6) x7 x8 xs1 xs2) x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  rw [View.canon_unit_zero hz3]
  simp only [View.readAt_eq_ld, View.readCov_unit_zero (S := S1x512) _ hz2, View.readCov_unit_zero (S := S1x1) _ hz2, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1600x1024) hz3, View.ld_unit_zero (S := S1024x512) hz2, View.ld_unit_zero (S := S1x512) hz2, View.ld_unit_zero (S := S512x384) hz2, View.ld_unit_zero (S := S1x384) hz2, View.ld_unit_zero (S := S384x1) hz2, View.ld_unit_zero (S := S1x1) hz2, View.ld_unit_zero (S := S512x2) hz2, View.ld_unit_zero (S := S1x2) hz2, View.ld_unit_zero (S := S1x1x2) hz3]

end Cert.KernelIdeal.Pieces

end
-- ==== Proof.LibStreamExp.lean ====
/-
  Streaming softmax accumulation over the extended reals.

  A row of scores is split into T blocks of B entries; every entry is a real number or the
  bottom element (a masked entry), and every block holds at least one real entry.  One pass over
  the blocks keeps a running maximum m, a running sum l of exp (score - m), and a running sum n
  of exp (score - m) over a selected subset of the entries; when the maximum grows from m to m',
  the two sums are first multiplied by exp (m - m').  The main theorem `run_eq` says that after
  all T blocks the state is (M, Σ exp (score - M), Σ_selected exp (score - M)), where M is the
  maximum of all scores: the one-pass recurrence computes the two-pass (max first, then sums)
  quantities exactly.  The identity behind it is exp (m - m') * exp (x - m) = exp (x - m').

  Two smaller groups of lemmas follow.  Scaling: dividing a difference of reals by a nonzero D
  is multiplying both terms by c = 1 / D, and a maximum of reals scales by a positive constant.
  Re-indexing: summing or taking the maximum over the indices of Fin (n+1) other than r, listed
  in order by `Fin.succAbove r`, is the same as summing or taking the maximum over all of
  Fin (n+1) with the entry at r replaced by the neutral element.
-/
import Mathlib
import Idealize.ShloMosaic.PureOps.Ideal

open scoped BigOperators
open Idealize.ShloMosaic

noncomputable section

namespace Cert.StreamExp

/-! ### Coercion of finite sums and of maxima -/

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-! ### The weight exp (x - M) as a real number -/

/-- The real weight of a score `x` against a real maximum `M`: zero for a masked score. -/
def w (x : EReal) (M : ℝ) : ℝ := if x = ⊥ then 0 else Real.exp (x.toReal - M)

theorem w_bot (M : ℝ) : w ⊥ M = 0 := by simp [w]

theorem w_coe (r M : ℝ) : w (r : EReal) M = Real.exp (r - M) := by
  simp [w, EReal.coe_ne_bot]

/-- For a score that is masked or real, the extended-real exponential of `x - M` is the
    coercion of the real weight. -/
theorem exp_sub_coe {x : EReal} (hx : x = ⊥ ∨ ∃ r : ℝ, x = (r : EReal)) (M : ℝ) :
    Ideal.exp (x - (M : EReal)) = (w x M : EReal) := by
  rcases hx with rfl | ⟨r, rfl⟩
  · rw [EReal.bot_sub, Ideal.exp_bot, w_bot, EReal.coe_zero]
  · rw [← EReal.coe_sub, Ideal.exp_coe, w_coe]

/-- Rescaling: exp (M - M') * exp (x - M) = exp (x - M'). -/
theorem rescale_w (x : EReal) (M M' : ℝ) : Real.exp (M - M') * w x M = w x M' := by
  unfold w
  split_ifs with h
  · simp
  · rw [← Real.exp_add]
    congr 1
    ring

/-! ### The one-pass recurrence -/

/-- One block of the recurrence: new maximum, rescaled sum, rescaled selected sum. -/
def step {B : ℕ} (st : EReal × EReal × EReal) (s : Fin B → EReal) (p : Fin B → Bool) :
    EReal × EReal × EReal :=
  let m' := max st.1 ((Finset.univ : Finset (Fin B)).fold max ⊥ s)
  (m', Ideal.exp (st.1 - m') * st.2.1 + ∑ j, Ideal.exp (s j - m'),
       Ideal.exp (st.1 - m') * st.2.2 + ∑ j, (if p j then Ideal.exp (s j - m') else 0))

/-- The state after the first `t` blocks (all `T` of them once `t ≥ T`). -/
def run {T B : ℕ} (s : Fin T → Fin B → EReal) (p : Fin T → Fin B → Bool) :
    ℕ → EReal × EReal × EReal
  | 0 => (⊥, 0, 0)
  | t + 1 => if h : t < T then step (run s p t) (s ⟨t, h⟩) (p ⟨t, h⟩) else run s p t

/-- A block of masked-or-real scores with at least one real score has a real maximum. -/
theorem block_max_real {B : ℕ} (s : Fin B → EReal)
    (hs : ∀ j, s j = ⊥ ∨ ∃ r : ℝ, s j = (r : EReal)) (hne : ∃ j, ∃ r : ℝ, s j = (r : EReal)) :
    ∃ R : ℝ, (Finset.univ : Finset (Fin B)).fold max ⊥ s = (R : EReal) := by
  have htop : (Finset.univ : Finset (Fin B)).fold max ⊥ s ≠ ⊤ := by
    apply ne_of_lt
    refine (Finset.fold_max_lt _).2 ⟨bot_lt_top, fun j _ => ?_⟩
    rcases hs j with h | ⟨r, h⟩
    · rw [h]; exact bot_lt_top
    · rw [h]; exact EReal.coe_lt_top r
  have hbot : (Finset.univ : Finset (Fin B)).fold max ⊥ s ≠ ⊥ := by
    obtain ⟨j, r, hj⟩ := hne
    apply ne_of_gt
    refine (Finset.lt_fold_max _).2 (Or.inr ⟨j, Finset.mem_univ j, ?_⟩)
    rw [hj]; exact EReal.bot_lt_coe r
  exact ⟨_, (EReal.coe_toReal htop hbot).symm⟩

/-- Coercion commutes with selecting a real weight or zero. -/
theorem coe_ite_zero (b : Bool) (a : ℝ) :
    (if b then (a : EReal) else 0) = ((if b then a else 0 : ℝ) : EReal) := by
  cases b <;> simp

/-- One block from a state of real numbers, in real arithmetic. -/
theorem step_coe {B : ℕ} (M L N R : ℝ) (s : Fin B → EReal) (p : Fin B → Bool)
    (hs : ∀ j, s j = ⊥ ∨ ∃ r : ℝ, s j = (r : EReal))
    (hR : (Finset.univ : Finset (Fin B)).fold max ⊥ s = (R : EReal)) :
    step ((M : EReal), (L : EReal), (N : EReal)) s p =
      (((max M R : ℝ) : EReal),
       ((Real.exp (M - max M R) * L + ∑ j, w (s j) (max M R) : ℝ) : EReal),
       ((Real.exp (M - max M R) * N + ∑ j, (if p j then w (s j) (max M R) else 0) : ℝ) : EReal)) := by
  have h1 : ∀ j, Ideal.exp (s j - ((max M R : ℝ) : EReal)) = ((w (s j) (max M R) : ℝ) : EReal) :=
    fun j => exp_sub_coe (hs j) _
  simp only [step]
  rw [hR, ← coe_max]
  simp only [h1, coe_ite_zero, ← EReal.coe_sub, Ideal.exp_coe, EReal.coe_add, EReal.coe_mul, coe_sum]

/-- The first block, from the initial state (⊥, 0, 0). -/
theorem step_bot {B : ℕ} (R : ℝ) (s : Fin B → EReal) (p : Fin B → Bool)
    (hs : ∀ j, s j = ⊥ ∨ ∃ r : ℝ, s j = (r : EReal))
    (hR : (Finset.univ : Finset (Fin B)).fold max ⊥ s = (R : EReal)) :
    step ((⊥ : EReal), (0 : EReal), (0 : EReal)) s p =
      ((R : EReal), ((∑ j, w (s j) R : ℝ) : EReal),
       ((∑ j, (if p j then w (s j) R else 0) : ℝ) : EReal)) := by
  have h1 : ∀ j, Ideal.exp (s j - (R : EReal)) = ((w (s j) R : ℝ) : EReal) :=
    fun j => exp_sub_coe (hs j) _
  simp only [step]
  rw [hR, max_bot_left, EReal.bot_sub, Ideal.exp_bot]
  simp only [h1, coe_ite_zero, mul_zero, zero_add, coe_sum]

/-- Rescaling a double sum of weights term by term. -/
theorem rescale_sum {ι κ : Type*} (S : Finset ι) (K : Finset κ) (c : ℝ) (f f' : ι → κ → ℝ)
    (h : ∀ i j, c * f i j = f' i j) :
    c * ∑ i ∈ S, ∑ j ∈ K, f i j = ∑ i ∈ S, ∑ j ∈ K, f' i j := by
  rw [Finset.mul_sum]
  refine Finset.sum_congr rfl fun i _ => ?_
  rw [Finset.mul_sum]
  exact Finset.sum_congr rfl fun j _ => h i j

/-- Adding one new index to a finite sum, with the new term written last. -/
theorem sum_insert_comm {ι : Type*} [DecidableEq ι] {a : ι} {S : Finset ι} (h : a ∉ S) (F : ι → ℝ) :
    ∑ i ∈ insert a S, F i = (∑ i ∈ S, F i) + F a := by
  rw [Finset.sum_insert h, add_comm]

/-- The blocks at positions strictly before `t`. -/
def before (T t : ℕ) : Finset (Fin T) := Finset.univ.filter (fun i => i.val < t)

theorem before_zero (T : ℕ) : before T 0 = ∅ := by
  simp [before]

theorem before_self (T : ℕ) : before T T = Finset.univ := by
  simp [before]

theorem not_mem_before {T t : ℕ} (h : t < T) : (⟨t, h⟩ : Fin T) ∉ before T t := by
  simp [before]

theorem before_succ {T t : ℕ} (h : t < T) : before T (t + 1) = insert (⟨t, h⟩ : Fin T) (before T t) := by
  ext i
  simp only [before, Finset.mem_filter, Finset.mem_univ, true_and, Finset.mem_insert, Fin.ext_iff]
  omega

/-- The invariant: after `t + 1` blocks the state holds the maximum of the scores seen so far and
    the two sums of weights against that maximum. -/
theorem run_inv {T B : ℕ} (s : Fin T → Fin B → EReal) (p : Fin T → Fin B → Bool)
    (hs : ∀ t j, s t j = ⊥ ∨ ∃ r : ℝ, s t j = (r : EReal))
    (hne : ∀ t, ∃ j, ∃ r : ℝ, s t j = (r : EReal)) :
    ∀ t, t < T → ∃ M : ℝ,
      (before T (t + 1)).fold max ⊥ (fun i => (Finset.univ : Finset (Fin B)).fold max ⊥ (s i))
        = (M : EReal) ∧
      run s p (t + 1) = ((M : EReal),
        ((∑ i ∈ before T (t + 1), ∑ j, w (s i j) M : ℝ) : EReal),
        ((∑ i ∈ before T (t + 1), ∑ j, (if p i j then w (s i j) M else 0) : ℝ) : EReal)) := by
  intro t
  induction t with
  | zero =>
    intro h
    obtain ⟨R, hR⟩ := block_max_real (s ⟨0, h⟩) (hs _) (hne _)
    refine ⟨R, ?_, ?_⟩
    · rw [before_succ h, Finset.fold_insert (not_mem_before h), before_zero, Finset.fold_empty, hR,
        max_bot_right]
    · rw [before_succ h, before_zero]
      simp only [run, h, dite_true]
      rw [step_bot R _ _ (hs _) hR]
      simp
  | succ t ih =>
    intro h
    obtain ⟨M, hM, hrun⟩ := ih (Nat.lt_of_succ_lt h)
    obtain ⟨R, hR⟩ := block_max_real (s ⟨t + 1, h⟩) (hs _) (hne _)
    refine ⟨max M R, ?_, ?_⟩
    · rw [before_succ h, Finset.fold_insert (not_mem_before h), hM, hR, max_comm, coe_max]
    · have hstep : run s p (t + 1 + 1) = step (run s p (t + 1)) (s ⟨t + 1, h⟩) (p ⟨t + 1, h⟩) := by
        rw [run, dif_pos h]
      rw [hstep, hrun, step_coe M _ _ R _ _ (hs _) hR, before_succ h,
        sum_insert_comm (not_mem_before h), sum_insert_comm (not_mem_before h),
        rescale_sum _ _ _ _ (fun i j => w (s i j) (max M R)) (fun i j => rescale_w _ _ _),
        rescale_sum _ _ _ _ (fun i j => if p i j then w (s i j) (max M R) else 0)
          (fun i j => by split_ifs <;> simp [rescale_w])]

/-- The one-pass recurrence over all `T` blocks computes the maximum `M` of all scores, the sum of
    exp (score - M) and the selected sum of exp (score - M). -/
theorem run_eq {T B : ℕ} (hT : 0 < T) (s : Fin T → Fin B → EReal) (p : Fin T → Fin B → Bool)
    (hs : ∀ t j, s t j = ⊥ ∨ ∃ r : ℝ, s t j = (r : EReal))
    (hne : ∀ t, ∃ j, ∃ r : ℝ, s t j = (r : EReal)) :
    ∃ M : ℝ,
      ((Finset.univ : Finset (Fin T)).fold max ⊥
          fun t => (Finset.univ : Finset (Fin B)).fold max ⊥ (s t)) = (M : EReal) ∧
      run s p T = ((M : EReal), ∑ t, ∑ j, Ideal.exp (s t j - (M : EReal)),
        ∑ t, ∑ j, (if p t j then Ideal.exp (s t j - (M : EReal)) else 0)) := by
  obtain ⟨T', rfl⟩ : ∃ T', T = T' + 1 := Nat.exists_eq_succ_of_ne_zero hT.ne'
  obtain ⟨M, hM, hrun⟩ := run_inv s p hs hne T' (Nat.lt_succ_self T')
  rw [before_self] at hM hrun
  refine ⟨M, hM, ?_⟩
  have h1 : ∀ t j, Ideal.exp (s t j - (M : EReal)) = ((w (s t j) M : ℝ) : EReal) :=
    fun t j => exp_sub_coe (hs t j) M
  rw [hrun]
  simp only [h1, coe_ite_zero, coe_sum]

/-! ### Scaling by a constant -/

/-- Dividing a difference of reals by a nonzero `D` is multiplying both terms by `c = 1 / D`. -/
theorem exp_div_eq (x A D c : ℝ) (hD : D ≠ 0) (hc : c = 1 / D) :
    Ideal.exp (Ideal.div ((x : EReal) - (A : EReal)) (D : EReal))
      = Ideal.exp (((x * c : ℝ) : EReal) - ((A * c : ℝ) : EReal)) := by
  rw [Ideal.div_coe hD, ← EReal.coe_sub, ← EReal.coe_mul, ← EReal.coe_sub, hc]
  congr 2
  ring

/-- A maximum of finitely many reals scales by a positive constant. -/
theorem fold_max_mul {ι : Type*} [Fintype ι] (a : ι → ℝ) (A c : ℝ) (hc : 0 < c)
    (h : (Finset.univ : Finset ι).fold max ⊥ (fun j => (a j : EReal)) = (A : EReal)) :
    (Finset.univ : Finset ι).fold max ⊥ (fun j => ((a j * c : ℝ) : EReal))
      = ((A * c : ℝ) : EReal) := by
  have hle : ∀ j, a j ≤ A := by
    intro j
    have := ((Finset.fold_max_le _).1 h.le).2 j (Finset.mem_univ j)
    exact EReal.coe_le_coe_iff.1 this
  have hge : ∃ j, A ≤ a j := by
    rcases (Finset.le_fold_max _).1 h.ge with hb | ⟨j, _, hj⟩
    · exact absurd (le_bot_iff.1 hb) (EReal.coe_ne_bot A)
    · exact ⟨j, EReal.coe_le_coe_iff.1 hj⟩
  apply le_antisymm
  · refine (Finset.fold_max_le _).2 ⟨bot_le, fun j _ => ?_⟩
    exact EReal.coe_le_coe_iff.2 (mul_le_mul_of_nonneg_right (hle j) hc.le)
  · obtain ⟨j, hj⟩ := hge
    refine (Finset.le_fold_max _).2 (Or.inr ⟨j, Finset.mem_univ j, ?_⟩)
    exact EReal.coe_le_coe_iff.2 (mul_le_mul_of_nonneg_right hj hc.le)

/-! ### Dropping one index of `Fin (n+1)` -/

/-- Summing over the indices other than `r`, listed by `r.succAbove`, is summing over all
    indices with the entry at `r` replaced by zero. -/
theorem sum_succAbove_eq {α : Type*} [AddCommMonoid α] {n : ℕ} (r : Fin (n + 1))
    (g : Fin (n + 1) → α) :
    ∑ k : Fin n, g (r.succAbove k) = ∑ j : Fin (n + 1), (if j = r then 0 else g j) := by
  rw [Fin.sum_univ_succAbove _ r]
  simp [Fin.succAbove_ne]

/-- The maximum over the indices other than `r`, listed by `r.succAbove`, is the maximum over
    all indices with the entry at `r` replaced by the bottom element. -/
theorem fold_max_succAbove_eq {α : Type*} [LinearOrder α] [OrderBot α] {n : ℕ} (r : Fin (n + 1))
    (g : Fin (n + 1) → α) :
    (Finset.univ : Finset (Fin n)).fold max ⊥ (fun k => g (r.succAbove k))
      = (Finset.univ : Finset (Fin (n + 1))).fold max ⊥ (fun j => if j = r then ⊥ else g j) := by
  apply le_antisymm
  · refine (Finset.fold_max_le _).2 ⟨bot_le, fun k _ => ?_⟩
    refine (Finset.le_fold_max _).2 (Or.inr ⟨r.succAbove k, Finset.mem_univ _, ?_⟩)
    rw [if_neg (Fin.succAbove_ne r k)]
  · refine (Finset.fold_max_le _).2 ⟨bot_le, fun j _ => ?_⟩
    by_cases hj : j = r
    · rw [if_pos hj]; exact bot_le
    · rw [if_neg hj]
      obtain ⟨k, rfl⟩ := Fin.exists_succAbove_eq hj
      exact (Finset.le_fold_max _).2 (Or.inr ⟨k, Finset.mem_univ _, le_rfl⟩)

/-- The index map in plain arithmetic: positions below `r` stay, the others move up by one. -/
theorem succAbove_val {n : ℕ} (r : Fin (n + 1)) (k : Fin n) :
    (r.succAbove k).val = if k.val < r.val then k.val else k.val + 1 := by
  unfold Fin.succAbove
  by_cases h : k.val < r.val
  · rw [if_pos h, if_pos (by simpa [Fin.lt_def] using h)]
    rfl
  · rw [if_neg h, if_neg (by simpa [Fin.lt_def] using h)]
    rfl

/-! ### Part 4: one row, streamed against whole

  A row of n + 1 real scores is read in two ways.  Streamed: the columns are cut into T blocks of
  B, each score is multiplied by c, one column r may be masked to ⊥, and the recurrence `run`
  goes over the blocks.  Whole: the maximum A of the (unmasked) scores is taken first, then
  exp ((score - A) / D) is summed, the column r being dropped by re-indexing with
  `Fin.succAbove r`.  With c = 1 / D > 0 the two readings give the same sums. -/

/-- A double sum over blocks is the sum over the whole index set. -/
theorem sum_blocks {ι α : Type*} [Fintype ι] [AddCommMonoid α] {T B : ℕ}
    (e : Fin T × Fin B ≃ ι) (g : ι → α) :
    ∑ t, ∑ j, g (e (t, j)) = ∑ i, g i := by
  rw [← Equiv.sum_comp e g, Fintype.sum_prod_type]

/-- A maximum of block maxima is the maximum over the whole index set. -/
theorem fold_max_blocks {ι α : Type*} [Fintype ι] [LinearOrder α] [OrderBot α] {T B : ℕ}
    (e : Fin T × Fin B ≃ ι) (g : ι → α) :
    (Finset.univ : Finset (Fin T)).fold max ⊥
        (fun t => (Finset.univ : Finset (Fin B)).fold max ⊥ (fun j => g (e (t, j))))
      = (Finset.univ : Finset ι).fold max ⊥ g := by
  apply le_antisymm
  · refine (Finset.fold_max_le _).2 ⟨bot_le, fun t _ => ?_⟩
    refine (Finset.fold_max_le _).2 ⟨bot_le, fun j _ => ?_⟩
    exact (Finset.le_fold_max _).2 (Or.inr ⟨e (t, j), Finset.mem_univ _, le_rfl⟩)
  · refine (Finset.fold_max_le _).2 ⟨bot_le, fun i _ => ?_⟩
    refine (Finset.le_fold_max _).2 (Or.inr ⟨(e.symm i).1, Finset.mem_univ _, ?_⟩)
    refine (Finset.le_fold_max _).2 (Or.inr ⟨(e.symm i).2, Finset.mem_univ _, ?_⟩)
    simp only [Prod.mk.eta, Equiv.apply_symm_apply, le_refl]

/-- The recurrence over the blocks of a re-indexed family computes the whole family's maximum
    and sums. -/
theorem run_blocks {ι : Type*} [Fintype ι] {T B : ℕ} (hT : 0 < T) (e : Fin T × Fin B ≃ ι)
    (x : ι → EReal) (q : ι → Bool)
    (hx : ∀ i, x i = ⊥ ∨ ∃ y : ℝ, x i = (y : EReal))
    (hne : ∀ t, ∃ j, ∃ y : ℝ, x (e (t, j)) = (y : EReal)) :
    ∃ M : ℝ, (Finset.univ : Finset ι).fold max ⊥ x = (M : EReal) ∧
      run (fun t j => x (e (t, j))) (fun t j => q (e (t, j))) T =
        ((M : EReal), ∑ i, Ideal.exp (x i - (M : EReal)),
          ∑ i, (if q i then Ideal.exp (x i - (M : EReal)) else 0)) := by
  obtain ⟨M, hM, hrun⟩ := run_eq hT (fun t j => x (e (t, j))) (fun t j => q (e (t, j)))
    (fun t j => hx _) hne
  refine ⟨M, ?_, ?_⟩
  · rw [← fold_max_blocks e x]; exact hM
  · rw [hrun, sum_blocks e (fun i => Ideal.exp (x i - (M : EReal))),
      sum_blocks e (fun i => if q i then Ideal.exp (x i - (M : EReal)) else 0)]

/-- The scaled row with the entry at `r` masked. -/
def rowMasked {n : ℕ} (r : Fin (n + 1)) (a : Fin (n + 1) → ℝ) (c : ℝ) : Fin (n + 1) → EReal :=
  fun i => if i = r then ⊥ else ((a i * c : ℝ) : EReal)

theorem rowMasked_self {n : ℕ} (r : Fin (n + 1)) (a : Fin (n + 1) → ℝ) (c : ℝ) :
    rowMasked r a c r = ⊥ := if_pos rfl

theorem rowMasked_ne {n : ℕ} {r i : Fin (n + 1)} (h : i ≠ r) (a : Fin (n + 1) → ℝ) (c : ℝ) :
    rowMasked r a c i = ((a i * c : ℝ) : EReal) := if_neg h

/-- Selecting by a Boolean is multiplying by its indicator. -/
theorem ite_eq_indicator_mul (b : Bool) (y : EReal) :
    (if b then y else 0) = (if b then (1 : EReal) else 0) * y := by
  cases b <;> simp

/-- Masked row: the streamed sums are the whole-row sums with the column `r` dropped. -/
theorem row_masked {T B n : ℕ} (hT : 0 < T) (hB : 2 ≤ B) (e : Fin T × Fin B ≃ Fin (n + 1))
    (r : Fin (n + 1)) (a : Fin (n + 1) → ℝ) (lab : Fin (n + 1) → Bool) (c D : ℝ)
    (hD : 0 < D) (hc : c = 1 / D) :
    (run (fun t j => if e (t, j) = r then (⊥ : EReal) else (a (e (t, j)) : EReal) * (c : EReal))
        (fun t j => lab (e (t, j))) T).2.1
      = ∑ k : Fin n, Ideal.exp (Ideal.div ((a (r.succAbove k) : EReal)
          - (Finset.univ : Finset (Fin n)).fold max ⊥ (fun k => (a (r.succAbove k) : EReal)))
          (D : EReal)) ∧
    (run (fun t j => if e (t, j) = r then (⊥ : EReal) else (a (e (t, j)) : EReal) * (c : EReal))
        (fun t j => lab (e (t, j))) T).2.2
      = ∑ k : Fin n, (if lab (r.succAbove k) then (1 : EReal) else 0)
          * Ideal.exp (Ideal.div ((a (r.succAbove k) : EReal)
          - (Finset.univ : Finset (Fin n)).fold max ⊥ (fun k => (a (r.succAbove k) : EReal)))
          (D : EReal)) := by
  have hc0 : 0 < c := by rw [hc]; positivity
  have hcard : T * B = n + 1 := by simpa using Fintype.card_congr e
  have hn : 0 < n := by
    have h2 : 2 ≤ T * B := le_trans hB (Nat.le_mul_of_pos_left B hT)
    omega
  -- the streamed scores are the masked row, re-indexed
  have hs : (fun t j => if e (t, j) = r then (⊥ : EReal) else (a (e (t, j)) : EReal) * (c : EReal))
      = fun t j => rowMasked r a c (e (t, j)) := by
    funext t j
    simp only [rowMasked, EReal.coe_mul]
  have hx : ∀ i, rowMasked r a c i = ⊥ ∨ ∃ y : ℝ, rowMasked r a c i = (y : EReal) := by
    intro i
    by_cases h : i = r
    · left; rw [h, rowMasked_self]
    · right; exact ⟨a i * c, rowMasked_ne h a c⟩
  have hne : ∀ t, ∃ j, ∃ y : ℝ, rowMasked r a c (e (t, j)) = (y : EReal) := by
    intro t
    by_cases h0 : e (t, ⟨0, by omega⟩) = r
    · have h1 : e (t, ⟨1, by omega⟩) ≠ r := by
        intro h1
        have h01 := e.injective (h0.trans h1.symm)
        simp [Prod.ext_iff, Fin.ext_iff] at h01
      exact ⟨⟨1, by omega⟩, _, rowMasked_ne h1 a c⟩
    · exact ⟨⟨0, by omega⟩, _, rowMasked_ne h0 a c⟩
  obtain ⟨M, hM, hrun⟩ := run_blocks hT e (rowMasked r a c) lab hx hne
  -- the reference maximum is real, and the streamed maximum is that real times c
  obtain ⟨Af, hAf⟩ := block_max_real (fun k : Fin n => (a (r.succAbove k) : EReal))
    (fun k => Or.inr ⟨_, rfl⟩) ⟨⟨0, hn⟩, _, rfl⟩
  have hMA : M = Af * c := by
    have h1 := fold_max_mul (fun k : Fin n => a (r.succAbove k)) Af c hc0 hAf
    have h2 := fold_max_succAbove_eq r (fun j => ((a j * c : ℝ) : EReal))
    have h3 : (Finset.univ : Finset (Fin (n + 1))).fold max ⊥ (rowMasked r a c)
        = ((Af * c : ℝ) : EReal) := by
      rw [← h1, h2]; rfl
    exact EReal.coe_injective (hM.symm.trans h3)
  -- the reference terms are the streamed weights at the kept columns
  have hterm : ∀ k : Fin n, Ideal.exp (Ideal.div ((a (r.succAbove k) : EReal) - (Af : EReal)) (D : EReal))
      = Ideal.exp (rowMasked r a c (r.succAbove k) - (M : EReal)) := by
    intro k
    rw [exp_div_eq _ _ D c hD.ne' hc, rowMasked_ne (Fin.succAbove_ne r k), hMA]
  have hG : Ideal.exp (rowMasked r a c r - (M : EReal)) = 0 := by
    rw [rowMasked_self, EReal.bot_sub, Ideal.exp_bot]
  rw [hs, hrun, hAf]
  refine ⟨?_, ?_⟩
  · show ∑ i, Ideal.exp (rowMasked r a c i - (M : EReal)) = _
    simp only [hterm]
    rw [sum_succAbove_eq r (fun i => Ideal.exp (rowMasked r a c i - (M : EReal)))]
    refine Finset.sum_congr rfl fun i _ => ?_
    by_cases h : i = r
    · rw [if_pos h, h, hG]
    · rw [if_neg h]
  · show ∑ i, (if lab i then Ideal.exp (rowMasked r a c i - (M : EReal)) else 0) = _
    simp only [hterm]
    rw [sum_succAbove_eq r (fun i => (if lab i then (1 : EReal) else 0)
      * Ideal.exp (rowMasked r a c i - (M : EReal)))]
    refine Finset.sum_congr rfl fun i _ => ?_
    by_cases h : i = r
    · rw [if_pos h, h, hG]; simp
    · rw [if_neg h, ite_eq_indicator_mul]

/-- Unmasked row: the streamed sums are the whole-row sums. -/
theorem row_whole {T B n : ℕ} (hT : 0 < T) (hB : 0 < B) (e : Fin T × Fin B ≃ Fin (n + 1))
    (b : Fin (n + 1) → ℝ) (lab : Fin (n + 1) → Bool) (c D : ℝ)
    (hD : 0 < D) (hc : c = 1 / D) :
    (run (fun t j => (b (e (t, j)) : EReal) * (c : EReal)) (fun t j => lab (e (t, j))) T).2.1
      = ∑ j : Fin (n + 1), Ideal.exp (Ideal.div ((b j : EReal)
          - (Finset.univ : Finset (Fin (n + 1))).fold max ⊥ (fun j => (b j : EReal))) (D : EReal)) ∧
    (run (fun t j => (b (e (t, j)) : EReal) * (c : EReal)) (fun t j => lab (e (t, j))) T).2.2
      = ∑ j : Fin (n + 1), (if lab j then (1 : EReal) else 0)
          * Ideal.exp (Ideal.div ((b j : EReal)
          - (Finset.univ : Finset (Fin (n + 1))).fold max ⊥ (fun j => (b j : EReal))) (D : EReal)) := by
  have hc0 : 0 < c := by rw [hc]; positivity
  have hs : (fun t j => (b (e (t, j)) : EReal) * (c : EReal))
      = fun t j => (fun i => ((b i * c : ℝ) : EReal)) (e (t, j)) := by
    funext t j
    simp only [EReal.coe_mul]
  obtain ⟨M, hM, hrun⟩ := run_blocks hT e (fun i => ((b i * c : ℝ) : EReal)) lab
    (fun i => Or.inr ⟨_, rfl⟩) (fun t => ⟨⟨0, hB⟩, _, rfl⟩)
  obtain ⟨Ae, hAe⟩ := block_max_real (fun j : Fin (n + 1) => (b j : EReal))
    (fun j => Or.inr ⟨_, rfl⟩) ⟨0, _, rfl⟩
  have hMA : M = Ae * c := by
    have h1 := fold_max_mul b Ae c hc0 hAe
    exact EReal.coe_injective (hM.symm.trans h1)
  have hterm : ∀ j : Fin (n + 1), Ideal.exp (Ideal.div ((b j : EReal) - (Ae : EReal)) (D : EReal))
      = Ideal.exp (((b j * c : ℝ) : EReal) - (M : EReal)) := by
    intro j
    rw [exp_div_eq _ _ D c hD.ne' hc, hMA]
  rw [hs, hrun, hAe]
  refine ⟨?_, ?_⟩
  · show ∑ i, Ideal.exp (((b i * c : ℝ) : EReal) - (M : EReal)) = _
    simp only [hterm]
  · show ∑ i, (if lab i then Ideal.exp (((b i * c : ℝ) : EReal) - (M : EReal)) else 0) = _
    refine Finset.sum_congr rfl fun i _ => ?_
    rw [hterm i, ite_eq_indicator_mul]

/-- The column of entry `j` of block `t`: 8192 columns in 16 blocks of 512. -/
def colOf (t : Fin 16) (j : Fin 512) : Fin 8192 := ⟨t.val * 512 + j.val, by omega⟩

/-- Blocks and positions within a block enumerate the columns. -/
def colEquiv : Fin 16 × Fin 512 ≃ Fin 8192 where
  toFun x := colOf x.1 x.2
  invFun i := (⟨i.val / 512, by omega⟩, ⟨i.val % 512, by omega⟩)
  left_inv := by
    rintro ⟨t, j⟩
    simp only [colOf, Prod.mk.injEq, Fin.ext_iff]
    omega
  right_inv := by
    intro i
    simp only [colOf, Fin.ext_iff]
    omega

theorem colEquiv_apply (t : Fin 16) (j : Fin 512) : colEquiv (t, j) = colOf t j := rfl

/-- One row of 8192 columns: the streamed sums (16 blocks of 512, scores times c, the diagonal
    column masked for the first family) are the whole-row sums (scores divided by D, the diagonal
    column dropped by re-indexing for the first family). -/
theorem row_bridge (r : Fin 8192) (a b : Fin 8192 → ℝ) (lab : Fin 8192 → Bool) (c D : ℝ)
    (hD : 0 < D) (hc : c = 1 / D) :
    (run (fun t j => if colOf t j = r then (⊥ : EReal) else (a (colOf t j) : EReal) * (c : EReal))
        (fun t j => lab (colOf t j)) 16).2.1
      = ∑ k : Fin 8191, Ideal.exp (Ideal.div ((a (Fin.succAbove (n := 8191) r k) : EReal)
          - (Finset.univ : Finset (Fin 8191)).fold max ⊥
              (fun k => (a (Fin.succAbove (n := 8191) r k) : EReal))) (D : EReal)) ∧
    (run (fun t j => if colOf t j = r then (⊥ : EReal) else (a (colOf t j) : EReal) * (c : EReal))
        (fun t j => lab (colOf t j)) 16).2.2
      = ∑ k : Fin 8191, (if lab (Fin.succAbove (n := 8191) r k) then (1 : EReal) else 0)
          * Ideal.exp (Ideal.div ((a (Fin.succAbove (n := 8191) r k) : EReal)
          - (Finset.univ : Finset (Fin 8191)).fold max ⊥
              (fun k => (a (Fin.succAbove (n := 8191) r k) : EReal))) (D : EReal)) ∧
    (run (fun t j => (b (colOf t j) : EReal) * (c : EReal)) (fun t j => lab (colOf t j)) 16).2.1
      = ∑ j : Fin 8192, Ideal.exp (Ideal.div ((b j : EReal)
          - (Finset.univ : Finset (Fin 8192)).fold max ⊥ (fun j => (b j : EReal))) (D : EReal)) ∧
    (run (fun t j => (b (colOf t j) : EReal) * (c : EReal)) (fun t j => lab (colOf t j)) 16).2.2
      = ∑ j : Fin 8192, (if lab j then (1 : EReal) else 0)
          * Ideal.exp (Ideal.div ((b j : EReal)
          - (Finset.univ : Finset (Fin 8192)).fold max ⊥ (fun j => (b j : EReal))) (D : EReal)) := by
  obtain ⟨h1, h2⟩ := row_masked (T := 16) (B := 512) (n := 8191) (by norm_num) (by norm_num)
    colEquiv r a lab c D hD hc
  obtain ⟨h3, h4⟩ := row_whole (T := 16) (B := 512) (n := 8191) (by norm_num) (by norm_num)
    colEquiv b lab c D hD hc
  exact ⟨h1, h2, h3, h4⟩

end Cert.StreamExp
-- ==== Proof.LibStreamPool.lean ====
/-
  The streaming form of a softmax-weighted sum, on the extended reals.

  A row of scores is read in T blocks of B entries; every entry comes with a family of values (one per coordinate c).
  One pass over the blocks keeps a running maximum m, a running sum l of exp (score − m) and, per coordinate, a
  running sum acc of exp (score − m) · value; when a block raises the maximum from m to m', the two sums are first
  multiplied by exp (m − m'). The pass starts from (−∞, 0, 0): on the extended reals −∞ − r = −∞ and exp (−∞) = 0,
  so the first block's rescaling factor is 0.

  The main theorem, `run_div_eq`: for real scores and real values, after all T blocks acc / l is the
  softmax-weighted sum of the values taken the two-pass way — the maximum of all scores first, then
  exp (score − max) divided by 0 plus the sum of those exponentials, times the value, summed over the row.
-/
import Mathlib
import Idealize.ShloMosaic.PureOps.Ideal
import proofs.«157097_j71451075937077_2_alg».proof.Proof.LibStreamExp

open scoped BigOperators
open Idealize.ShloMosaic

noncomputable section

namespace Cert.StreamLaw

/-- One block of the pass: the new maximum, the rescaled sum of exponentials, the rescaled weighted sums. -/
def step {B : ℕ} {γ : Type} (st : EReal × EReal × (γ → EReal)) (s : Fin B → EReal) (v : Fin B → γ → EReal) :
    EReal × EReal × (γ → EReal) :=
  (max st.1 ((Finset.univ : Finset (Fin B)).fold max ⊥ s),
   Ideal.exp (st.1 - max st.1 ((Finset.univ : Finset (Fin B)).fold max ⊥ s)) * st.2.1
     + ∑ j, Ideal.exp (s j - max st.1 ((Finset.univ : Finset (Fin B)).fold max ⊥ s)),
   fun c => Ideal.exp (st.1 - max st.1 ((Finset.univ : Finset (Fin B)).fold max ⊥ s)) * st.2.2 c
     + ∑ j, Ideal.exp (s j - max st.1 ((Finset.univ : Finset (Fin B)).fold max ⊥ s)) * v j c)

/-- The state after the first `t` blocks (all `T` of them once `t ≥ T`). -/
def run {T B : ℕ} {γ : Type} (s : Fin T → Fin B → EReal) (v : Fin T → Fin B → γ → EReal) :
    ℕ → EReal × EReal × (γ → EReal)
  | 0 => (⊥, 0, fun _ => 0)
  | t + 1 => if h : t < T then step (run s v t) (s ⟨t, h⟩) (v ⟨t, h⟩) else run s v t

theorem run_zero {T B : ℕ} {γ : Type} (s : Fin T → Fin B → EReal) (v : Fin T → Fin B → γ → EReal) :
    run s v 0 = (⊥, 0, fun _ => 0) := rfl

theorem run_succ {T B : ℕ} {γ : Type} (s : Fin T → Fin B → EReal) (v : Fin T → Fin B → γ → EReal) (t : ℕ) (h : t < T) :
    run s v (t + 1) = step (run s v t) (s ⟨t, h⟩) (v ⟨t, h⟩) := by
  rw [run, dif_pos h]

/-! ### The pass on real scores and real values

  From here on every score and every value is a real number.  The state after any positive number of blocks is
  then a triple of real numbers (the third one per coordinate), and one block is a step of real arithmetic. -/

open Cert.StreamExp (coe_sum coe_max before before_zero before_self before_succ not_mem_before sum_insert_comm
  rescale_sum sum_blocks fold_max_blocks block_max_real)

/-- Rescaling one weight: exp (M − M') · exp (x − M) = exp (x − M'). -/
theorem rescale_exp (x M M' : ℝ) : Real.exp (M - M') * Real.exp (x - M) = Real.exp (x - M') := by
  rw [← Real.exp_add]
  congr 1
  ring

/-- Rescaling one weighted value: exp (M − M') · (exp (x − M) · y) = exp (x − M') · y. -/
theorem rescale_exp_mul (x y M M' : ℝ) :
    Real.exp (M - M') * (Real.exp (x - M) * y) = Real.exp (x - M') * y := by
  rw [← mul_assoc, rescale_exp]

/-- A nonempty block of real scores has a real maximum. -/
theorem block_max {B : ℕ} (hB : 0 < B) (s : Fin B → ℝ) :
    ∃ R : ℝ, (Finset.univ : Finset (Fin B)).fold max ⊥ (fun j => (s j : EReal)) = (R : EReal) :=
  block_max_real _ (fun _ => Or.inr ⟨_, rfl⟩) ⟨⟨0, hB⟩, _, rfl⟩

/-- One block from a state of real numbers, in real arithmetic. -/
theorem step_coe {B : ℕ} {γ : Type} (M L R : ℝ) (A : γ → ℝ) (s : Fin B → ℝ) (v : Fin B → γ → ℝ)
    (hR : (Finset.univ : Finset (Fin B)).fold max ⊥ (fun j => (s j : EReal)) = (R : EReal)) :
    step ((M : EReal), (L : EReal), fun c => (A c : EReal)) (fun j => (s j : EReal))
        (fun j c => (v j c : EReal)) =
      (((max M R : ℝ) : EReal),
       ((Real.exp (M - max M R) * L + ∑ j, Real.exp (s j - max M R) : ℝ) : EReal),
       fun c => ((Real.exp (M - max M R) * A c + ∑ j, Real.exp (s j - max M R) * v j c : ℝ) : EReal)) := by
  simp only [step]
  rw [hR, ← coe_max]
  simp only [← EReal.coe_sub, Ideal.exp_coe, EReal.coe_add, EReal.coe_mul, coe_sum]

/-- The first block, from the initial state (−∞, 0, 0): the rescaling factor exp (−∞ − R) is 0. -/
theorem step_bot {B : ℕ} {γ : Type} (R : ℝ) (s : Fin B → ℝ) (v : Fin B → γ → ℝ)
    (hR : (Finset.univ : Finset (Fin B)).fold max ⊥ (fun j => (s j : EReal)) = (R : EReal)) :
    step ((⊥ : EReal), (0 : EReal), fun _ => (0 : EReal)) (fun j => (s j : EReal))
        (fun j c => (v j c : EReal)) =
      ((R : EReal), ((∑ j, Real.exp (s j - R) : ℝ) : EReal),
       fun c => ((∑ j, Real.exp (s j - R) * v j c : ℝ) : EReal)) := by
  simp only [step]
  rw [hR, max_bot_left, EReal.bot_sub, Ideal.exp_bot]
  simp only [zero_mul, zero_add, ← EReal.coe_sub, Ideal.exp_coe, EReal.coe_mul, coe_sum]

/-- The invariant: after t + 1 blocks the state holds the maximum M of the scores seen so far, the sum of
    exp (score − M) over them, and per coordinate the sum of exp (score − M) · value over them. -/
theorem run_inv {T B : ℕ} {γ : Type} (hB : 0 < B) (s : Fin T → Fin B → ℝ) (v : Fin T → Fin B → γ → ℝ) :
    ∀ t, t < T → ∃ M : ℝ,
      (before T (t + 1)).fold max ⊥
          (fun i => (Finset.univ : Finset (Fin B)).fold max ⊥ (fun j => (s i j : EReal))) = (M : EReal) ∧
      run (fun i j => (s i j : EReal)) (fun i j c => (v i j c : EReal)) (t + 1) =
        ((M : EReal), ((∑ i ∈ before T (t + 1), ∑ j, Real.exp (s i j - M) : ℝ) : EReal),
         fun c => ((∑ i ∈ before T (t + 1), ∑ j, Real.exp (s i j - M) * v i j c : ℝ) : EReal)) := by
  intro t
  induction t with
  | zero =>
    intro h
    obtain ⟨R, hR⟩ := block_max hB (s ⟨0, h⟩)
    refine ⟨R, ?_, ?_⟩
    · rw [before_succ h, Finset.fold_insert (not_mem_before h), before_zero, Finset.fold_empty, hR,
        max_bot_right]
    · rw [run_succ _ _ 0 h, run_zero, step_bot R _ _ hR, before_succ h, before_zero]
      simp
  | succ t ih =>
    intro h
    obtain ⟨M, hM, hrun⟩ := ih (Nat.lt_of_succ_lt h)
    obtain ⟨R, hR⟩ := block_max hB (s ⟨t + 1, h⟩)
    refine ⟨max M R, ?_, ?_⟩
    · rw [before_succ h, Finset.fold_insert (not_mem_before h), hM, hR, max_comm, coe_max]
    · -- the old sums, rescaled by exp (M − max M R), plus the new block's sums
      have h2 : Real.exp (M - max M R) * (∑ i ∈ before T (t + 1), ∑ j, Real.exp (s i j - M))
            + ∑ j, Real.exp (s ⟨t + 1, h⟩ j - max M R)
          = ∑ i ∈ before T (t + 1 + 1), ∑ j, Real.exp (s i j - max M R) := by
        rw [before_succ h, sum_insert_comm (not_mem_before h),
          rescale_sum _ _ _ _ (fun i j => Real.exp (s i j - max M R)) (fun i j => rescale_exp _ _ _)]
      have h3 : ∀ c, Real.exp (M - max M R) * (∑ i ∈ before T (t + 1), ∑ j, Real.exp (s i j - M) * v i j c)
            + ∑ j, Real.exp (s ⟨t + 1, h⟩ j - max M R) * v ⟨t + 1, h⟩ j c
          = ∑ i ∈ before T (t + 1 + 1), ∑ j, Real.exp (s i j - max M R) * v i j c := by
        intro c
        rw [before_succ h, sum_insert_comm (not_mem_before h),
          rescale_sum _ _ _ _ (fun i j => Real.exp (s i j - max M R) * v i j c)
            (fun i j => rescale_exp_mul _ _ _ _)]
      rw [run_succ _ _ (t + 1) h, hrun, step_coe M _ R _ _ _ hR, h2]
      simp only [h3]

/-! ### The whole pass against the softmax-weighted sum -/

/-- For real scores and real values, read in T blocks of B through the enumeration e, the pass ends with
    acc / l equal to the softmax-weighted sum of the values, the maximum being taken over all scores first. -/
theorem run_div_eq {T B : ℕ} {γ ι : Type} [Fintype ι] (hT : 0 < T) (hB : 0 < B) (e : Fin T × Fin B ≃ ι)
    (x : ι → EReal) (y : ι → γ → EReal) (hx : ∀ i, ∃ r : ℝ, x i = (r : EReal)) (hy : ∀ i c, ∃ r : ℝ, y i c = (r : EReal)) (c : γ) :
    Ideal.div ((run (fun t j => x (e (t, j))) (fun t j => y (e (t, j))) T).2.2 c)
        ((run (fun t j => x (e (t, j))) (fun t j => y (e (t, j))) T).2.1)
      = ∑ i, Ideal.div (Ideal.exp (x i - max ⊥ ((Finset.univ : Finset ι).fold max ⊥ x)))
            (0 + ∑ i', Ideal.exp (x i' - max ⊥ ((Finset.univ : Finset ι).fold max ⊥ x))) * y i c := by
  choose xr hxr using hx
  choose yr hyr using hy
  obtain rfl : x = fun i => (xr i : EReal) := funext hxr
  obtain rfl : y = fun i c => (yr i c : EReal) := funext fun i => funext (hyr i)
  obtain ⟨T', rfl⟩ : ∃ T', T = T' + 1 := Nat.exists_eq_succ_of_ne_zero hT.ne'
  obtain ⟨M, hM, hrun⟩ := run_inv hB (fun t j => xr (e (t, j))) (fun t j c => yr (e (t, j)) c) T'
    (Nat.lt_succ_self T')
  rw [before_self] at hM hrun
  -- the maximum of the block maxima is the maximum of all scores
  have hM' : (Finset.univ : Finset ι).fold max ⊥ (fun i => (xr i : EReal)) = (M : EReal) := by
    rw [← fold_max_blocks e]
    exact hM
  -- the block double sums are sums over all indices
  have hL : ∑ t, ∑ j, Real.exp (xr (e (t, j)) - M) = ∑ i, Real.exp (xr i - M) :=
    sum_blocks e (fun i => Real.exp (xr i - M))
  have hA : ∑ t, ∑ j, Real.exp (xr (e (t, j)) - M) * yr (e (t, j)) c = ∑ i, Real.exp (xr i - M) * yr i c :=
    sum_blocks e (fun i => Real.exp (xr i - M) * yr i c)
  -- the sum of the weights is positive: there is at least one score
  have hD : 0 < ∑ i, Real.exp (xr i - M) :=
    Finset.sum_pos (fun i _ => Real.exp_pos _) ⟨e (⟨0, Nat.succ_pos T'⟩, ⟨0, hB⟩), Finset.mem_univ _⟩
  rw [hrun]
  simp only []
  rw [hM', max_bot_left, hL, hA]
  simp only [zero_add, ← EReal.coe_sub, Ideal.exp_coe, ← coe_sum, Ideal.div_coe hD.ne', ← EReal.coe_mul]
  rw [EReal.coe_eq_coe_iff, Finset.sum_mul]
  refine Finset.sum_congr rfl fun i _ => ?_
  ring

end Cert.StreamLaw

end
-- ==== Proof.Spec.lean ====
/-
  The specification: what both programs compute, as functions of the eleven argument arrays.

  For a batch b and a row n of x: the hidden row hid = relu (x[b,n,:] · Wf + bf), the gated row
  gate = tanh (hid · Wa + ba) · logistic (hid · Wb + bb), the score = gate · Wc + bc. The pooled row is the
  softmax-weighted sum over n of the hidden rows, and the result is pooled · Wcls + bcls. The two programs differ in
  how they take the pooled row: in one pass over 25 blocks of 1600 rows with a running maximum (`outK`), or with the
  whole row's maximum first (`outR`).
-/
import Idealize.ShloMosaic.Lib.ValueIdx
import Idealize.ShloMosaic.PureOps.Ideal.Laws
import proofs.«157097_j71451075937077_2_alg».proof.Proof.LibStreamPool

open scoped BigOperators

noncomputable section

namespace Cert.Spec

open Idealize.ShloMosaic Idealize.ShloMosaic.ValueIdx

/-- The eleven argument arrays, in the order of the programs' parameters. -/
structure Args where
  x : (⟨3, ![2, 40000, 1024]⟩ : Shape).Idx → EReal
  Wf : (⟨2, ![1024, 512]⟩ : Shape).Idx → EReal
  bf : (⟨1, ![512]⟩ : Shape).Idx → EReal
  Wa : (⟨2, ![512, 384]⟩ : Shape).Idx → EReal
  ba : (⟨1, ![384]⟩ : Shape).Idx → EReal
  Wb : (⟨2, ![512, 384]⟩ : Shape).Idx → EReal
  bb : (⟨1, ![384]⟩ : Shape).Idx → EReal
  Wc : (⟨2, ![384, 1]⟩ : Shape).Idx → EReal
  bc : (⟨1, ![1]⟩ : Shape).Idx → EReal
  Wcls : (⟨2, ![512, 2]⟩ : Shape).Idx → EReal
  bcls : (⟨1, ![2]⟩ : Shape).Idx → EReal

/-- The hidden row: relu (x[b,n,:] · Wf + bf) at coordinate l. -/
def hid (A : Args) (b : Fin 2) (n : Fin 40000) (l : Fin 512) : EReal :=
  max (∑ k : Fin 1024, A.x (ix3 b n k) * A.Wf (ix2 k l) + A.bf (ix1 l)) 0

/-- The gated row: tanh (hid · Wa + ba) · logistic (hid · Wb + bb) at coordinate d. -/
def gate (A : Args) (b : Fin 2) (n : Fin 40000) (d : Fin 384) : EReal :=
  Ideal.tanh (∑ k : Fin 512, hid A b n k * A.Wa (ix2 k d) + A.ba (ix1 d))
    * Ideal.logistic (∑ k : Fin 512, hid A b n k * A.Wb (ix2 k d) + A.bb (ix1 d))

/-- The score of row n of batch b: gate · Wc + bc. -/
def score (A : Args) (b : Fin 2) (n : Fin 40000) : EReal :=
  ∑ d : Fin 384, gate A b n d * A.Wc (ix2 d 0) + A.bc (ix1 0)

/-- Row j of block t. -/
def rowOf (t : Fin 25) (j : Fin 1600) : Fin 40000 := ⟨t.val * 1600 + j.val, by omega⟩

/-- Blocks and positions within a block enumerate the rows. -/
def rowEquiv : Fin 25 × Fin 1600 ≃ Fin 40000 where
  toFun p := rowOf p.1 p.2
  invFun n := (⟨n.val / 1600, by omega⟩, ⟨n.val % 1600, by omega⟩)
  left_inv := by
    rintro ⟨t, j⟩
    simp only [rowOf, Prod.mk.injEq, Fin.ext_iff]
    omega
  right_inv := by
    intro n
    simp only [rowOf, Fin.ext_iff]
    omega

theorem rowEquiv_apply (t : Fin 25) (j : Fin 1600) : rowEquiv (t, j) = rowOf t j := rfl

/-- The one-pass state (running maximum, sum of exponentials, weighted sums per hidden coordinate) of batch b after
    k blocks. -/
def state (A : Args) (b : Fin 2) (k : ℕ) : EReal × EReal × (Fin 512 → EReal) :=
  StreamLaw.run (fun t j => score A b (rowOf t j)) (fun t j c => hid A b (rowOf t j) c) k

/-- The pooled row as the one pass takes it: the weighted sums divided by the sum of exponentials. -/
def pooledK (A : Args) (b : Fin 2) (c : Fin 512) : EReal :=
  Ideal.div ((state A b 25).2.2 c) ((state A b 25).2.1)

/-- The result as the one pass takes it. -/
def outK (A : Args) (b : Fin 2) (q : Fin 2) : EReal :=
  ∑ c : Fin 512, pooledK A b c * A.Wcls (ix2 c q) + A.bcls (ix1 q)

/-- The maximum of a batch's scores (taken, as the softmax takes it, against −∞ once more). -/
def rowMax (A : Args) (b : Fin 2) : EReal :=
  max ⊥ ((Finset.univ : Finset (Fin 40000)).fold max ⊥ (fun n => score A b n))

/-- The softmax weight of row n. -/
def weight (A : Args) (b : Fin 2) (n : Fin 40000) : EReal :=
  Ideal.div (Ideal.exp (score A b n - rowMax A b)) (0 + ∑ n' : Fin 40000, Ideal.exp (score A b n' - rowMax A b))

/-- The pooled row with the whole row's maximum taken first. -/
def pooledR (A : Args) (b : Fin 2) (c : Fin 512) : EReal :=
  ∑ n : Fin 40000, weight A b n * hid A b n c

/-- The result with the whole row's maximum taken first. -/
def outR (A : Args) (b : Fin 2) (q : Fin 2) : EReal :=
  ∑ c : Fin 512, pooledR A b c * A.Wcls (ix2 c q) + A.bcls (ix1 q)

/-- Every entry of every argument array is a real number. -/
structure IsReal (A : Args) : Prop where
  x : ∀ i, ∃ r : ℝ, A.x i = (r : EReal)
  Wf : ∀ i, ∃ r : ℝ, A.Wf i = (r : EReal)
  bf : ∀ i, ∃ r : ℝ, A.bf i = (r : EReal)
  Wa : ∀ i, ∃ r : ℝ, A.Wa i = (r : EReal)
  ba : ∀ i, ∃ r : ℝ, A.ba i = (r : EReal)
  Wb : ∀ i, ∃ r : ℝ, A.Wb i = (r : EReal)
  bb : ∀ i, ∃ r : ℝ, A.bb i = (r : EReal)
  Wc : ∀ i, ∃ r : ℝ, A.Wc i = (r : EReal)
  bc : ∀ i, ∃ r : ℝ, A.bc i = (r : EReal)
  Wcls : ∀ i, ∃ r : ℝ, A.Wcls i = (r : EReal)
  bcls : ∀ i, ∃ r : ℝ, A.bcls i = (r : EReal)

end Cert.Spec

end
-- ==== Proof.BlockRead.lean ====
/-
  The blocks the body loads, read at an index in terms of the argument arrays.

  Point t of the grid is block t % 25 of batch t / 25. The block of x at that point is rows
  (t % 25) · 1600 … + 1599 of batch t / 25; every other operand's block is its whole array, which the lines before the
  call wrote from an argument: a change of float format (the identity on the extended reals) for the four weight
  matrices, and a recast of a vector as a one-row matrix for the five bias vectors.
-/
import proofs.«157097_j71451075937077_2_alg».proof.Proof.Gen.KernelIdeal.Frame
import proofs.«157097_j71451075937077_2_alg».proof.Proof.Spec
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BlockRead

open Cert.KernelIdeal Cert.KernelIdeal.Gen Idealize.ShloMosaic.ValueIdx

variable (m : (ℓ : Loc nD τ sig) → Buf (Elt Ideal) ℓ)

/-- The argument arrays as the kernel's memory holds them on core c. -/
def args (c : Dev nD) : Cert.Spec.Args where
  x := m ((c : Thread nD τ).loc main_arg0)
  Wf := m ((c : Thread nD τ).loc main_arg1)
  bf := m ((c : Thread nD τ).loc main_arg2)
  Wa := m ((c : Thread nD τ).loc main_arg3)
  ba := m ((c : Thread nD τ).loc main_arg4)
  Wb := m ((c : Thread nD τ).loc main_arg5)
  bb := m ((c : Thread nD τ).loc main_arg6)
  Wc := m ((c : Thread nD τ).loc main_arg7)
  bc := m ((c : Thread nD τ).loc main_arg8)
  Wcls := m ((c : Thread nD τ).loc main_arg9)
  bcls := m ((c : Thread nD τ).loc main_arg10)

/-- The batch of grid point t. -/
def batchOf (t : Fin cfg0.N) : Fin 2 := ⟨t.val / 25, by have := t.isLt; have h : cfg0.N = 50 := N_0; omega⟩
/-- The block of grid point t within its batch. -/
def blockOf (t : Fin cfg0.N) : Fin 25 := ⟨t.val % 25, Nat.mod_lt _ (by norm_num)⟩

/-- The block index of x at point t is (batch, block, 0). -/
theorem idx_x : ∀ t : Fin cfg0.N, win0_0.index t (0 : Fin 3) = t.val / 25 ∧ win0_0.index t (1 : Fin 3) = t.val % 25 ∧ win0_0.index t (2 : Fin 3) = 0 :=
  (by decide +kernel : ∀ t : Fin grid0.N, win0_0.index t (0 : Fin 3) = t.val / 25 ∧ win0_0.index t (1 : Fin 3) = t.val % 25 ∧ win0_0.index t (2 : Fin 3) = 0)
/-- Operand 1's block index never moves. -/
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Operand 2's block index never moves. -/
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Operand 3's block index never moves. -/
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Operand 4's block index never moves. -/
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Operand 5's block index never moves. -/
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Operand 6's block index never moves. -/
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Operand 7's block index never moves. -/
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Operand 8's block index never moves. -/
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Operand 9's block index never moves. -/
theorem idx_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Operand 10's block index never moves. -/
theorem idx_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- The block of x at point t: rows (t % 25) · 1600 + j of batch t / 25. -/
theorem blk_x (c : Dev nD) (t : Fin cfg0.N) (j : Fin 1600) (k : Fin 1024) :
    (iblk m c 0 t : Vec Ideal S1x1600x1024 .f32) (ix3 0 j k) = (args m c).x (ix3 (batchOf t) (Cert.Spec.rowOf (blockOf t) j) k) := by
  unfold iblk
  rw [View.read_apply]
  show V m c main_arg0 _ = m ((c : Thread nD τ).loc main_arg0) _
  rw [V_main_arg0]
  congr 1
  funext a
  apply Fin.ext
  obtain ⟨h0, h1, h2⟩ := idx_x t
  match a with
  | ⟨0, _⟩ => show win0_0.index t 0 * 1 + 1 * 0 = t.val / 25; rw [h0]; omega
  | ⟨1, _⟩ => show win0_0.index t 1 * 1600 + 1 * j.val = t.val % 25 * 1600 + j.val; rw [h1]; omega
  | ⟨2, _⟩ => show win0_0.index t 2 * 1024 + 1 * k.val = k.val; rw [h2]; omega

/-- What the lines before the call leave in operand 1's array: argument 1, its float format changed. -/
theorem V_Wf (c : Dev nD) : @Eq (FVec Ideal S1024x512 .bf16) (V m c main_v0) (truncf .bf16 (m ((c : Thread nD τ).loc main_arg1) : FVec Ideal S1024x512 .f32) bitsLt_bf16_f32) := by
  show StableHlo.after hostOps0 (fun b => m (c, b)) (Proc.devRef .tc main_v0) = _
  after_results

/-- So its block, the whole array at every point, is the argument. -/
theorem blk_Wf (c : Dev nD) (t : Fin cfg0.N) (k : Fin 1024) (l : Fin 512) :
    (iblk m c 1 t : Vec Ideal S1024x512 .bf16) (ix2 k l) = (args m c).Wf (ix2 k l) := by
  unfold iblk
  rw [View.read_apply]
  show V m c main_v0 _ = m ((c : Thread nD τ).loc main_arg1) _
  rw [V_Wf]
  show m ((c : Thread nD τ).loc main_arg1) _ = m ((c : Thread nD τ).loc main_arg1) _
  congr 1
  funext a
  apply Fin.ext
  obtain ⟨h0, h1⟩ := idx_1 t
  match a with
  | ⟨0, _⟩ => show win0_1.index t 0 * 1024 + 1 * k.val = k.val; rw [h0]; omega
  | ⟨1, _⟩ => show win0_1.index t 1 * 512 + 1 * l.val = l.val; rw [h1]; omega

/-- What the lines before the call leave in operand 3's array: argument 3, its float format changed. -/
theorem V_Wa (c : Dev nD) : @Eq (FVec Ideal S512x384 .bf16) (V m c main_v1) (truncf .bf16 (m ((c : Thread nD τ).loc main_arg3) : FVec Ideal S512x384 .f32) bitsLt_bf16_f32) := by
  show StableHlo.after hostOps0 (fun b => m (c, b)) (Proc.devRef .tc main_v1) = _
  after_results

/-- So its block, the whole array at every point, is the argument. -/
theorem blk_Wa (c : Dev nD) (t : Fin cfg0.N) (k : Fin 512) (l : Fin 384) :
    (iblk m c 3 t : Vec Ideal S512x384 .bf16) (ix2 k l) = (args m c).Wa (ix2 k l) := by
  unfold iblk
  rw [View.read_apply]
  show V m c main_v1 _ = m ((c : Thread nD τ).loc main_arg3) _
  rw [V_Wa]
  show m ((c : Thread nD τ).loc main_arg3) _ = m ((c : Thread nD τ).loc main_arg3) _
  congr 1
  funext a
  apply Fin.ext
  obtain ⟨h0, h1⟩ := idx_3 t
  match a with
  | ⟨0, _⟩ => show win0_3.index t 0 * 512 + 1 * k.val = k.val; rw [h0]; omega
  | ⟨1, _⟩ => show win0_3.index t 1 * 384 + 1 * l.val = l.val; rw [h1]; omega

/-- What the lines before the call leave in operand 5's array: argument 5, its float format changed. -/
theorem V_Wb (c : Dev nD) : @Eq (FVec Ideal S512x384 .bf16) (V m c main_v2) (truncf .bf16 (m ((c : Thread nD τ).loc main_arg5) : FVec Ideal S512x384 .f32) bitsLt_bf16_f32) := by
  show StableHlo.after hostOps0 (fun b => m (c, b)) (Proc.devRef .tc main_v2) = _
  after_results

/-- So its block, the whole array at every point, is the argument. -/
theorem blk_Wb (c : Dev nD) (t : Fin cfg0.N) (k : Fin 512) (l : Fin 384) :
    (iblk m c 5 t : Vec Ideal S512x384 .bf16) (ix2 k l) = (args m c).Wb (ix2 k l) := by
  unfold iblk
  rw [View.read_apply]
  show V m c main_v2 _ = m ((c : Thread nD τ).loc main_arg5) _
  rw [V_Wb]
  show m ((c : Thread nD τ).loc main_arg5) _ = m ((c : Thread nD τ).loc main_arg5) _
  congr 1
  funext a
  apply Fin.ext
  obtain ⟨h0, h1⟩ := idx_5 t
  match a with
  | ⟨0, _⟩ => show win0_5.index t 0 * 512 + 1 * k.val = k.val; rw [h0]; omega
  | ⟨1, _⟩ => show win0_5.index t 1 * 384 + 1 * l.val = l.val; rw [h1]; omega

/-- What the lines before the call leave in operand 7's array: argument 7, its float format changed. -/
theorem V_Wc (c : Dev nD) : @Eq (FVec Ideal S384x1 .bf16) (V m c main_v3) (truncf .bf16 (m ((c : Thread nD τ).loc main_arg7) : FVec Ideal S384x1 .f32) bitsLt_bf16_f32) := by
  show StableHlo.after hostOps0 (fun b => m (c, b)) (Proc.devRef .tc main_v3) = _
  after_results

/-- So its block, the whole array at every point, is the argument. -/
theorem blk_Wc (c : Dev nD) (t : Fin cfg0.N) (k : Fin 384) (l : Fin 1) :
    (iblk m c 7 t : Vec Ideal S384x1 .bf16) (ix2 k l) = (args m c).Wc (ix2 k l) := by
  unfold iblk
  rw [View.read_apply]
  show V m c main_v3 _ = m ((c : Thread nD τ).loc main_arg7) _
  rw [V_Wc]
  show m ((c : Thread nD τ).loc main_arg7) _ = m ((c : Thread nD τ).loc main_arg7) _
  congr 1
  funext a
  apply Fin.ext
  obtain ⟨h0, h1⟩ := idx_7 t
  match a with
  | ⟨0, _⟩ => show win0_7.index t 0 * 384 + 1 * k.val = k.val; rw [h0]; omega
  | ⟨1, _⟩ => show win0_7.index t 1 * 1 + 1 * l.val = l.val; rw [h1]; omega

/-- What the lines before the call leave in operand 2's array: argument 2 recast as a one-row matrix. -/
theorem V_bf (c : Dev nD) : @Eq (FVec Ideal S1x512 .f32) (V m c main_v4) (shapeCast S1x512 (m ((c : Thread nD τ).loc main_arg2) : FVec Ideal S512 .f32) shapeCasts_S512_S1x512) := by
  show StableHlo.after hostOps0 (fun b => m (c, b)) (Proc.devRef .tc main_v4) = _
  after_results
  rfl

/-- So its block at (0, l) is the argument at l. -/
theorem blk_bf (c : Dev nD) (t : Fin cfg0.N) (l : Fin 512) :
    (iblk m c 2 t : Vec Ideal S1x512 .f32) (ix2 0 l) = (args m c).bf (ix1 l) := by
  unfold iblk
  rw [View.read_apply]
  show V m c main_v4 _ = m ((c : Thread nD τ).loc main_arg2) _
  rw [V_bf]
  have e : ((cfg0.win 2).blk t).view.emb (ix2 (0 : Fin 1) l) = ix2 (0 : Fin 1) l := by
    funext a
    apply Fin.ext
    obtain ⟨h0, h1⟩ := idx_2 t
    match a with
    | ⟨0, _⟩ => show win0_2.index t 0 * 1 + 1 * 0 = 0; rw [h0]
    | ⟨1, _⟩ => show win0_2.index t 1 * 512 + 1 * l.val = l.val; rw [h1]; omega
  rw [e]
  exact shapeCast_a_1a_apply _ _ 0 l

/-- What the lines before the call leave in operand 4's array: argument 4 recast as a one-row matrix. -/
theorem V_ba (c : Dev nD) : @Eq (FVec Ideal S1x384 .f32) (V m c main_v5) (shapeCast S1x384 (m ((c : Thread nD τ).loc main_arg4) : FVec Ideal S384 .f32) shapeCasts_S384_S1x384) := by
  show StableHlo.after hostOps0 (fun b => m (c, b)) (Proc.devRef .tc main_v5) = _
  after_results
  rfl

/-- So its block at (0, l) is the argument at l. -/
theorem blk_ba (c : Dev nD) (t : Fin cfg0.N) (l : Fin 384) :
    (iblk m c 4 t : Vec Ideal S1x384 .f32) (ix2 0 l) = (args m c).ba (ix1 l) := by
  unfold iblk
  rw [View.read_apply]
  show V m c main_v5 _ = m ((c : Thread nD τ).loc main_arg4) _
  rw [V_ba]
  have e : ((cfg0.win 4).blk t).view.emb (ix2 (0 : Fin 1) l) = ix2 (0 : Fin 1) l := by
    funext a
    apply Fin.ext
    obtain ⟨h0, h1⟩ := idx_4 t
    match a with
    | ⟨0, _⟩ => show win0_4.index t 0 * 1 + 1 * 0 = 0; rw [h0]
    | ⟨1, _⟩ => show win0_4.index t 1 * 384 + 1 * l.val = l.val; rw [h1]; omega
  rw [e]
  exact shapeCast_a_1a_apply _ _ 0 l

/-- What the lines before the call leave in operand 6's array: argument 6 recast as a one-row matrix. -/
theorem V_bb (c : Dev nD) : @Eq (FVec Ideal S1x384 .f32) (V m c main_v6) (shapeCast S1x384 (m ((c : Thread nD τ).loc main_arg6) : FVec Ideal S384 .f32) shapeCasts_S384_S1x384) := by
  show StableHlo.after hostOps0 (fun b => m (c, b)) (Proc.devRef .tc main_v6) = _
  after_results
  rfl

/-- So its block at (0, l) is the argument at l. -/
theorem blk_bb (c : Dev nD) (t : Fin cfg0.N) (l : Fin 384) :
    (iblk m c 6 t : Vec Ideal S1x384 .f32) (ix2 0 l) = (args m c).bb (ix1 l) := by
  unfold iblk
  rw [View.read_apply]
  show V m c main_v6 _ = m ((c : Thread nD τ).loc main_arg6) _
  rw [V_bb]
  have e : ((cfg0.win 6).blk t).view.emb (ix2 (0 : Fin 1) l) = ix2 (0 : Fin 1) l := by
    funext a
    apply Fin.ext
    obtain ⟨h0, h1⟩ := idx_6 t
    match a with
    | ⟨0, _⟩ => show win0_6.index t 0 * 1 + 1 * 0 = 0; rw [h0]
    | ⟨1, _⟩ => show win0_6.index t 1 * 384 + 1 * l.val = l.val; rw [h1]; omega
  rw [e]
  exact shapeCast_a_1a_apply _ _ 0 l

/-- What the lines before the call leave in operand 8's array: argument 8 recast as a one-row matrix. -/
theorem V_bc (c : Dev nD) : @Eq (FVec Ideal S1x1 .f32) (V m c main_v7) (shapeCast S1x1 (m ((c : Thread nD τ).loc main_arg8) : FVec Ideal S1 .f32) shapeCasts_S1_S1x1) := by
  show StableHlo.after hostOps0 (fun b => m (c, b)) (Proc.devRef .tc main_v7) = _
  after_results
  rfl

/-- So its block at (0, l) is the argument at l. -/
theorem blk_bc (c : Dev nD) (t : Fin cfg0.N) (l : Fin 1) :
    (iblk m c 8 t : Vec Ideal S1x1 .f32) (ix2 0 l) = (args m c).bc (ix1 l) := by
  unfold iblk
  rw [View.read_apply]
  show V m c main_v7 _ = m ((c : Thread nD τ).loc main_arg8) _
  rw [V_bc]
  have e : ((cfg0.win 8).blk t).view.emb (ix2 (0 : Fin 1) l) = ix2 (0 : Fin 1) l := by
    funext a
    apply Fin.ext
    obtain ⟨h0, h1⟩ := idx_8 t
    match a with
    | ⟨0, _⟩ => show win0_8.index t 0 * 1 + 1 * 0 = 0; rw [h0]
    | ⟨1, _⟩ => show win0_8.index t 1 * 1 + 1 * l.val = l.val; rw [h1]; omega
  rw [e]
  exact shapeCast_a_1a_apply _ _ 0 l

/-- What the lines before the call leave in operand 10's array: argument 10 recast as a one-row matrix. -/
theorem V_bcls (c : Dev nD) : @Eq (FVec Ideal S1x2 .f32) (V m c main_v8) (shapeCast S1x2 (m ((c : Thread nD τ).loc main_arg10) : FVec Ideal S2 .f32) shapeCasts_S2_S1x2) := by
  show StableHlo.after hostOps0 (fun b => m (c, b)) (Proc.devRef .tc main_v8) = _
  after_results
  rfl

/-- So its block at (0, l) is the argument at l. -/
theorem blk_bcls (c : Dev nD) (t : Fin cfg0.N) (l : Fin 2) :
    (iblk m c 10 t : Vec Ideal S1x2 .f32) (ix2 0 l) = (args m c).bcls (ix1 l) := by
  unfold iblk
  rw [View.read_apply]
  show V m c main_v8 _ = m ((c : Thread nD τ).loc main_arg10) _
  rw [V_bcls]
  have e : ((cfg0.win 10).blk t).view.emb (ix2 (0 : Fin 1) l) = ix2 (0 : Fin 1) l := by
    funext a
    apply Fin.ext
    obtain ⟨h0, h1⟩ := idx_10 t
    match a with
    | ⟨0, _⟩ => show win0_10.index t 0 * 1 + 1 * 0 = 0; rw [h0]
    | ⟨1, _⟩ => show win0_10.index t 1 * 2 + 1 * l.val = l.val; rw [h1]; omega
  rw [e]
  exact shapeCast_a_1a_apply _ _ 0 l

/-- The classifier matrix is staged as it is. -/
theorem blk_Wcls (c : Dev nD) (t : Fin cfg0.N) (k : Fin 512) (l : Fin 2) :
    (iblk m c 9 t : Vec Ideal S512x2 .f32) (ix2 k l) = (args m c).Wcls (ix2 k l) := by
  unfold iblk
  rw [View.read_apply]
  show V m c main_arg9 _ = m ((c : Thread nD τ).loc main_arg9) _
  rw [V_main_arg9]
  congr 1
  funext a
  apply Fin.ext
  obtain ⟨h0, h1⟩ := idx_9 t
  match a with
  | ⟨0, _⟩ => show win0_9.index t 0 * 512 + 1 * k.val = k.val; rw [h0]; omega
  | ⟨1, _⟩ => show win0_9.index t 1 * 2 + 1 * l.val = l.val; rw [h1]; omega

end Cert.KernelIdeal.BlockRead

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.BodyMath1.lean ====
/-
  The arithmetic of the kernel body, read at an index, on the extended reals: the layers and the read-out.

  Each value the body computes between its loads and its stores is a pure function of the loaded blocks. Read at one
  index these functions are sums, maxima and quotients: a block of rows through a rectified linear layer
  (`pay5_apply`), a gate, the product of a hyperbolic tangent and a logistic of two linear layers (`pay6_apply`),
  one score per row (`pay7_apply`), the three initial scratch values (`pay2_apply`, `pay3_apply`, `pay4_apply`),
  and the final quotient through a last linear layer (`pay1_apply`).
-/
import proofs.«157097_j71451075937077_2_alg».proof.Proof.Gen.KernelIdeal.Skeleton
import proofs.«157097_j71451075937077_2_alg».proof.Proof.LibPlainDot
import Idealize.ShloMosaic.Lib.ValueIdx
import Idealize.ShloMosaic.Lib.ValueLayout
import Idealize.ShloMosaic.PureOps.Ideal.Laws

open scoped BigOperators

noncomputable section

namespace Cert.KernelIdeal.BodyMath

open Cert.KernelIdeal Cert.KernelIdeal.Gen Idealize.ShloMosaic Idealize.ShloMosaic.ValueIdx

/-! ## The non-pointwise operations at an index -/

/-- A plain product into the zero accumulator, at `(a, b)`: `∑ k, l[a,k] · r[k,b]`. -/
theorem plain_apply {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (a : Fin M) (b : Fin N) :
    matmul d prec l r (constant (F := Ideal) ⟨2, ![M, N]⟩ .f32 0x00000000#32) (ix2 a b)
      = ∑ k : Fin K, l (ix2 a k) * r (ix2 k b) :=
  congrFun (Cert.Lib.PlainDot.matmul_zero_eq d hd prec l r) (ix2 a b)

/-- A shape cast to the same shape, at an index. -/
theorem cast_self_apply {α : Type} {s : Shape} (v : s.Idx → α) (h : s.ShapeCasts s) (i : s.Idx) :
    shapeCast s v h i = v i :=
  congrFun (shapeCast_self v h) i

/-- The f32 zero pattern is the extended real `0`, as a scalar constant. -/
theorem zero_word : (FloatOps.ofBits .f32 0x00000000#32 : Ideal .f32) = 0 := Ideal.ofBits_zero_f32

/-- The pattern `0xFF800000` is `-∞`. -/
theorem neg_inf_word : (FloatOps.ofBits .f32 0xFF800000#32 : Ideal .f32) = ⊥ := by
  simp [Ideal.ofBits, Ideal.ieee]

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The hidden layer, the gate and the scores -/

/-- The hidden layer at `(j, l)`: the rectified affine image of row `j`. -/
theorem pay5_apply (x0 : Vec Ideal S1x1600x1024 .f32) (x1 : Vec Ideal S1024x512 .bf16) (x2 : Vec Ideal S1x512 .f32)
    (j : Fin 1600) (l : Fin 512) :
    k0_pay5 (F := Ideal) x0 x1 x2 (ix2 j l)
      = max (∑ k : Fin 1024, x0 (ix3 0 j k) * x1 (ix2 k l) + x2 (ix2 0 l)) 0 := by
  unfold k0_pay5
  show max (_ + _) _ = _
  refine congrArg₂ max (congrArg₂ (· + ·) ?_ ?_) zero_word
  · refine (plain_apply dot_S1600x1024_S1024x512_S1600x512_1_0_0_1_n_n rfl none _ _ j l).trans
      (Finset.sum_congr rfl fun k _ => congrArg₂ (· * ·) ?_ ?_)
    · exact shapeCast_1ab_ab_apply x0 _ j k
    · exact cast_self_apply x1 _ _
  · exact (broadcastTo_1b_ab_apply _ _ j l).trans (cast_self_apply x2 _ _)

/-- The gate at `(j, d)`: the hyperbolic tangent of one affine image of the hidden row `j` times the logistic of
    another. -/
theorem pay6_apply (x0 : Vec Ideal S1x1600x1024 .f32) (x1 : Vec Ideal S1024x512 .bf16) (x2 : Vec Ideal S1x512 .f32)
    (x3 : Vec Ideal S512x384 .bf16) (x4 : Vec Ideal S1x384 .f32) (x5 : Vec Ideal S512x384 .bf16)
    (x6 : Vec Ideal S1x384 .f32) (j : Fin 1600) (d : Fin 384) :
    k0_pay6 (F := Ideal) x0 x1 x2 x3 x4 x5 x6 (ix2 j d)
      = Ideal.tanh (∑ k : Fin 512, k0_pay5 (F := Ideal) x0 x1 x2 (ix2 j k) * x3 (ix2 k d) + x4 (ix2 0 d))
        * Ideal.logistic (∑ k : Fin 512, k0_pay5 (F := Ideal) x0 x1 x2 (ix2 j k) * x5 (ix2 k d) + x6 (ix2 0 d)) := by
  unfold k0_pay6
  show Ideal.tanh (_ + _) * Ideal.logistic (_ + _) = _
  refine congrArg₂ (· * ·) (congrArg Ideal.tanh (congrArg₂ (· + ·) ?_ ?_))
    (congrArg Ideal.logistic (congrArg₂ (· + ·) ?_ ?_))
  · exact (plain_apply dot_S1600x512_S512x384_S1600x384_1_0_0_1_n_n rfl none _ _ j d).trans
      (Finset.sum_congr rfl fun k _ => congrArg₂ (· * ·) rfl (cast_self_apply x3 _ _))
  · exact (broadcastTo_1b_ab_apply _ _ j d).trans (cast_self_apply x4 _ _)
  · exact (plain_apply dot_S1600x512_S512x384_S1600x384_1_0_0_1_n_n rfl none _ _ j d).trans
      (Finset.sum_congr rfl fun k _ => congrArg₂ (· * ·) rfl (cast_self_apply x5 _ _))
  · exact (broadcastTo_1b_ab_apply _ _ j d).trans (cast_self_apply x6 _ _)

/-- The score of row `j`: an affine function of the gate's row. -/
theorem pay7_apply (ag : FVec Ideal S1600x384 .bf16) (x7 : Vec Ideal S384x1 .bf16) (x8 : Vec Ideal S1x1 .f32)
    (j : Fin 1600) :
    k0_pay7 (F := Ideal) ag x7 x8 (ix2 j 0) = ∑ d : Fin 384, ag (ix2 j d) * x7 (ix2 d 0) + x8 (ix2 0 0) := by
  unfold k0_pay7
  show _ + _ = _
  refine congrArg₂ (· + ·) ?_ ?_
  · exact (plain_apply dot_S1600x384_S384x1_S1600x1_1_0_0_1_n_n rfl none ag _ j 0).trans
      (Finset.sum_congr rfl fun d _ => congrArg₂ (· * ·) rfl (cast_self_apply x7 _ _))
  · exact (broadcastTo_1b_ab_apply _ _ j 0).trans (cast_self_apply x8 _ _)

/-! ## The initial scratch values and the final read-out -/

/-- The weighted sums start at `0`. -/
theorem pay2_apply (c : Fin 512) : k0_pay2 (F := Ideal) (ix2 0 c) = 0 := by
  unfold k0_pay2
  exact (cast_self_apply _ _ _).trans zero_word

/-- The running maximum starts at `-∞`. -/
theorem pay3_apply : k0_pay3 (F := Ideal) (ix2 0 0) = ⊥ := by
  unfold k0_pay3
  exact (cast_self_apply _ _ _).trans neg_inf_word

/-- The sum of weights starts at `0`. -/
theorem pay4_apply : k0_pay4 (F := Ideal) (ix2 0 0) = 0 := by
  unfold k0_pay4
  exact (cast_self_apply _ _ _).trans zero_word

/-- The output at `q`: the weighted sums divided by the sum of weights, through the last affine layer. -/
theorem pay1_apply (xacc : Vec Ideal S1x512 .f32) (xl : Vec Ideal S1x1 .f32) (x9 : Vec Ideal S512x2 .f32)
    (x10 : Vec Ideal S1x2 .f32) (q : Fin 2) :
    k0_pay1 (F := Ideal) xacc xl x9 x10 (ix3 0 0 q)
      = ∑ c : Fin 512, Ideal.div (xacc (ix2 0 c)) (xl (ix2 0 0)) * x9 (ix2 c q) + x10 (ix2 0 q) := by
  unfold k0_pay1
  refine (shapeCast_ab_1ab_apply _ _ 0 0 q).trans ?_
  show _ + _ = _
  refine congrArg₂ (· + ·) ?_ (cast_self_apply x10 _ _)
  refine (plain_apply dot_S1x512_S512x2_S1x2_1_0_0_1_n_n rfl (some .fp32) _ x9 0 q).trans
    (Finset.sum_congr rfl fun c _ => congrArg₂ (· * ·) ?_ rfl)
  show Ideal.div _ _ = _
  exact congrArg (Ideal.div _) (broadcastTo_11_ab_apply xl _ 0 c)

end Cert.KernelIdeal.BodyMath

end
-- ==== Proof.LibColsDot.lean ====
/-
  A matrix product contracted over the FIRST axis of both operands, read at an index, on the extended reals.

  For the dimension numbers `<[0], [0], [1], [1]>` with no batch axis (a `K×M` left operand and a `K×N` right operand,
  the first axis of each contracted: the product of the left operand's transpose with the right operand) the entry
  `(a, b)` of the product is `∑ k, l[k,a] · r[k,b]`. A `tpu.matmul` into a zero accumulator and the host's
  `dot_general` with these numbers both compute it at the exact instance; both are stated as equalities of whole
  arrays with one function, `colsByCols l r`, so that a product computed block of columns of the left operand by
  block and the same product computed at once are compared through one name.
-/
import Idealize.ShloMosaic.Lib.ValueIdx
import Idealize.ShloMosaic.PureOps.Ideal.Laws

noncomputable section

namespace Cert.Lib.ColsDot

open Idealize.ShloMosaic Idealize.ShloMosaic.ValueIdx

/-- `<[0], [0], [1], [1]>`: `K×M` by `K×N`, both contracted on their first axis. -/
def cols (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product of the transpose of a `K×M` array by a `K×N` array: entry `(a, b)` is `∑ k, l[k,a] · r[k,b]`. -/
def colsByCols {K M N : ℕ} (l : (⟨2, ![K, M]⟩ : Shape).Idx → EReal) (r : (⟨2, ![K, N]⟩ : Shape).Idx → EReal) :
    (⟨2, ![M, N]⟩ : Shape).Idx → EReal :=
  fun j => ∑ k : Fin K, l (ix2 k (j 0)) * r (ix2 k (j 1))

theorem colsByCols_apply {K M N : ℕ} (l : (⟨2, ![K, M]⟩ : Shape).Idx → EReal) (r : (⟨2, ![K, N]⟩ : Shape).Idx → EReal)
    (j : (⟨2, ![M, N]⟩ : Shape).Idx) : colsByCols l r j = ∑ k : Fin K, l (ix2 k (j 0)) * r (ix2 k (j 1)) := rfl

/-- The left operand's index at result index `j` and contraction position `q`: row the contraction position's one
    coordinate … -/
theorem lhsIdx_row {K M N : ℕ} (j : (⟨2, ![M, N]⟩ : Shape).Idx) (q : (cols K M N).contr.Idx) :
    ((cols K M N).lhsIdx j q 0).val = (q ⟨0, Nat.one_pos⟩).val :=
  (cols K M N).lhsIdx_val_of_single rfl j q
/-- … and column `j 0`. -/
theorem lhsIdx_col {K M N : ℕ} (j : (⟨2, ![M, N]⟩ : Shape).Idx) (q : (cols K M N).contr.Idx) :
    ((cols K M N).lhsIdx j q 1).val = (j 0).val := by
  unfold DotDims.lhsIdx
  rw [dif_neg (show ¬(1 : Fin (⟨2, ![K, M]⟩ : Shape).rank) ∈ (cols K M N).lhsBatch from List.not_mem_nil),
    dif_pos (show (1 : Fin (⟨2, ![K, M]⟩ : Shape).rank) ∈ (cols K M N).lhsNonContracting from List.mem_singleton.mpr rfl)]
  rfl
/-- The right operand's index: row the contraction position's one coordinate … -/
theorem rhsIdx_row {K M N : ℕ} (j : (⟨2, ![M, N]⟩ : Shape).Idx) (q : (cols K M N).contr.Idx) :
    ((cols K M N).rhsIdx j q 0).val = (q ⟨0, Nat.one_pos⟩).val :=
  (cols K M N).rhsIdx_val_of_single rfl j q
/-- … and column `j 1`. -/
theorem rhsIdx_col {K M N : ℕ} (j : (⟨2, ![M, N]⟩ : Shape).Idx) (q : (cols K M N).contr.Idx) :
    ((cols K M N).rhsIdx j q 1).val = (j 1).val := by
  unfold DotDims.rhsIdx
  rw [dif_neg (show ¬(1 : Fin (⟨2, ![K, N]⟩ : Shape).rank) ∈ (cols K M N).rhsBatch from List.not_mem_nil),
    dif_pos (show (1 : Fin (⟨2, ![K, N]⟩ : Shape).rank) ∈ (cols K M N).rhsNonContracting from List.mem_singleton.mpr rfl)]
  rfl

/-- The sum over the record's one-axis contraction shape, with the operands read at the record's operand indices, is
    the sum over `k < K` of `l[k,a] · r[k,b]`: the contraction index is its one coordinate, the left index at `(j, k)`
    is `(k, j 0)` and the right index is `(k, j 1)`. -/
theorem contr_sum {K M N : ℕ} (d : DotDims ⟨2, ![K, M]⟩ ⟨2, ![K, N]⟩ ⟨2, ![M, N]⟩) (hd : d = cols K M N)
    (l : (⟨2, ![K, M]⟩ : Shape).Idx → EReal) (r : (⟨2, ![K, N]⟩ : Shape).Idx → EReal) (j : (⟨2, ![M, N]⟩ : Shape).Idx) :
    ∑ q : d.contr.Idx, l (d.lhsIdx j q) * r (d.rhsIdx j q) = colsByCols l r j := by
  subst hd
  unfold colsByCols
  rw [← Equiv.sum_comp (contrEquiv1 (cols K M N) K rfl rfl).symm]
  refine Finset.sum_congr rfl fun k _ => ?_
  have hk := contrEquiv1_symm_val (cols K M N) K rfl rfl k
  have el : (cols K M N).lhsIdx j ((contrEquiv1 (cols K M N) K rfl rfl).symm k) = ix2 k (j 0) :=
    funext fun a => Fin.ext (by
      match a with
      | ⟨0, _⟩ => exact (lhsIdx_row j _).trans hk
      | ⟨1, _⟩ => exact lhsIdx_col j _)
  have er : (cols K M N).rhsIdx j ((contrEquiv1 (cols K M N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with these dimension numbers into the zero accumulator is the product, whatever the operands'
    float formats and the precision attribute. -/
theorem matmul_zero_eq {K M N : ℕ} {φ₁ φ₂ : FTy} (d : DotDims ⟨2, ![K, M]⟩ ⟨2, ![K, N]⟩ ⟨2, ![M, N]⟩)
    (hd : d = cols K M N) (prec : Option ContractPrecision)
    (l : FVec Ideal ⟨2, ![K, M]⟩ φ₁) (r : FVec Ideal ⟨2, ![K, N]⟩ φ₂) :
    FloatOps.matmul d prec l r (constant (F := Ideal) ⟨2, ![M, N]⟩ .f32 0x00000000#32) = colsByCols l r :=
  funext fun j => (Ideal.matmul_constant_zero_apply d prec l r j).trans (contr_sum d hd l r j)

/-- The host's `dot_general` with these dimension numbers is the product, whatever the precision and the schedule. -/
theorem dotGeneral_eq {K M N : ℕ} {φ₁ φ₂ : FTy} (d : DotDims ⟨2, ![K, M]⟩ ⟨2, ![K, N]⟩ ⟨2, ![M, N]⟩)
    (hd : d = cols K M N) (prec : Option ContractPrecision) (sched : HostSchedule)
    (l : FVec Ideal ⟨2, ![K, M]⟩ φ₁) (r : FVec Ideal ⟨2, ![K, N]⟩ φ₂) :
    FloatOps.dotGeneral d prec sched l r = colsByCols l r :=
  funext fun j => (Ideal.dotGeneral_apply d prec sched l r j).trans (contr_sum d hd l r j)

/-- Two such products agree at two indices when their operands agree along the two columns read there. In
    particular a block of columns of the left operand gives the corresponding block of rows of the product. -/
theorem colsByCols_congr {K M M' N N' : ℕ} (l : (⟨2, ![K, M]⟩ : Shape).Idx → EReal) (r : (⟨2, ![K, N]⟩ : Shape).Idx → EReal)
    (l' : (⟨2, ![K, M']⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 k (j' 0)) = l (ix2 k (j 0))) (hr : ∀ k : Fin K, r' (ix2 k (j' 1)) = r (ix2 k (j 1))) :
    colsByCols l' r' j' = colsByCols l r j := by
  unfold colsByCols
  exact Finset.sum_congr rfl fun k _ => by rw [hl k, hr k]

end Cert.Lib.ColsDot

end
-- ==== Proof.LibColumnSum.lean ====
/-
  A sum down the columns of a matrix, read at an index, on the extended reals.

  A kernel's sum along the FIRST axis of an `[a, b]` array into `[b]` (`jnp.sum(x, axis=0)`), from the zero accumulator, at
  column `q`, is the sum of that column's `a` entries. (The companion along the second axis reads a row sum.)
-/
import Idealize.ShloMosaic.Lib.ValueIdx
import Idealize.ShloMosaic.PureOps.Ideal.Laws

noncomputable section

namespace Cert.Lib.ColumnSum

open Idealize.ShloMosaic Idealize.ShloMosaic.ValueIdx

/-- A sum along the first axis of an `[a, b]` array, at column `q`, is the sum of that column's `a` entries. -/
theorem colsum_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ x 0x00000000#32 h hφ hacc (ix1 q) = ∑ k : Fin a, x (ix2 k q) := by
  refine (Ideal.multiReduction_add_single x 0x00000000#32 h hφ hacc (ix1 q)).trans ?_
  refine Finset.sum_congr rfl fun k _ => congrArg x ?_
  funext d
  apply Fin.ext
  match d with
  | ⟨0, _⟩ => rfl
  | ⟨1, _⟩ => rfl

end Cert.Lib.ColumnSum

end
-- ==== Proof.BodyMath2.lean ====
/-
  The arithmetic of the kernel body, read at an index, on the extended reals: the scratch update.

  Between its loads and its stores the body takes the block's scores, their maximum against the stored running
  maximum, the exponentials of the differences, and adds their sum, and their sums weighted by the hidden rows, to the
  stored sums rescaled. Read at an index the three stored values are one step of the streaming softmax-weighted sum
  (`scratch_step`).
-/
import proofs.«157097_j71451075937077_2_alg».proof.Proof.BodyMath1
import proofs.«157097_j71451075937077_2_alg».proof.Proof.LibStreamPool
import proofs.«157097_j71451075937077_2_alg».proof.Proof.LibColsDot
import proofs.«157097_j71451075937077_2_alg».proof.Proof.LibColumnSum

open scoped BigOperators

noncomputable section

namespace Cert.KernelIdeal.BodyMath

open Cert.KernelIdeal Cert.KernelIdeal.Gen Idealize.ShloMosaic Idealize.ShloMosaic.ValueIdx

/-! ## Two more non-pointwise operations at an index -/

/-- A product contracted over the first axis of both operands, into the zero accumulator, at `(a, b)`:
    `∑ k, l[k,a] · r[k,b]`. -/
theorem cols_apply {K M N : ℕ} {φ₁ φ₂ : FTy} (d : DotDims ⟨2, ![K, M]⟩ ⟨2, ![K, N]⟩ ⟨2, ![M, N]⟩)
    (hd : d = Cert.Lib.ColsDot.cols K M N) (prec : Option ContractPrecision)
    (l : FVec Ideal ⟨2, ![K, M]⟩ φ₁) (r : FVec Ideal ⟨2, ![K, N]⟩ φ₂) (a : Fin M) (b : Fin N) :
    matmul d prec l r (constant (F := Ideal) ⟨2, ![M, N]⟩ .f32 0x00000000#32) (ix2 a b)
      = ∑ k : Fin K, l (ix2 k a) * r (ix2 k b) :=
  congrFun (Cert.Lib.ColsDot.matmul_zero_eq d hd prec l r) (ix2 a b)

/-- The maximum down the columns of an `[a, b]` array from `-∞`, at column `q`: the fold of `max` from `-∞` over
    that column's `a` entries. -/
theorem colmax_apply {a b : ℕ} (x : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ x 0xFF800000#32 h hφ hacc (ix1 q)
      = (Finset.univ : Finset (Fin a)).fold max ⊥ (fun k => x (ix2 k q)) := by
  refine (Ideal.multiReduction_maximumf_single x 0xFF800000#32 h hφ hacc (ix1 q)).trans ?_
  have hf : (x ∘ h.lift (ix1 q)) = fun k : Fin a => x (ix2 k q) := funext fun k => congrArg x (by
    funext d; apply Fin.ext
    match d with
    | ⟨0, _⟩ => rfl
    | ⟨1, _⟩ => rfl)
  exact congrArg₂ (fun e f => Finset.fold max e f (Finset.univ : Finset (Fin a))) neg_inf_word hf

/-! ## One step of the streaming pass over the block's rows -/

section Step
variable (h : FVec Ideal S1600x512 .bf16) (ag : FVec Ideal S1600x384 .bf16) (x7 : Vec Ideal S384x1 .bf16)
  (x8 : Vec Ideal S1x1 .f32) (xm xl : Vec Ideal S1x1 .f32) (xacc : Vec Ideal S1x512 .f32)

/-- The new running maximum: the old one against the largest score of the block. -/
theorem pay8_apply :
    k0_pay8 (F := Ideal) ag x7 x8 xm (ix2 0 0)
      = max (xm (ix2 0 0))
          ((Finset.univ : Finset (Fin 1600)).fold max ⊥ (fun j => k0_pay7 (F := Ideal) ag x7 x8 (ix2 j 0))) := by
  unfold k0_pay8
  show max _ _ = _
  refine congrArg₂ max rfl ?_
  exact (shapeCast_a_1a_apply _ _ 0 0).trans (colmax_apply _ _ _ _ 0)

/-- The rescaling factor of the old sums: `exp (m − m')`. -/
theorem pay9_apply :
    k0_pay9 (F := Ideal) ag x7 x8 xm (ix2 0 0)
      = Ideal.exp (xm (ix2 0 0) - k0_pay8 (F := Ideal) ag x7 x8 xm (ix2 0 0)) := by
  unfold k0_pay9
  rfl

/-- The weight of row `j`: `exp (s_j − m')`. -/
theorem pay10_apply (j : Fin 1600) :
    k0_pay10 (F := Ideal) ag x7 x8 xm (ix2 j 0)
      = Ideal.exp (k0_pay7 (F := Ideal) ag x7 x8 (ix2 j 0) - k0_pay8 (F := Ideal) ag x7 x8 xm (ix2 0 0)) := by
  unfold k0_pay10
  show Ideal.exp (_ - _) = _
  exact congrArg (fun t => Ideal.exp (_ - t)) (broadcastTo_11_ab_apply _ _ j 0)

/-- The stored maximum is the new running maximum. -/
theorem pay13_apply :
    k0_pay13 (F := Ideal) ag x7 x8 xm (ix2 0 0) = k0_pay8 (F := Ideal) ag x7 x8 xm (ix2 0 0) := by
  unfold k0_pay13
  exact cast_self_apply _ _ _

/-- The new sum of weights: the old one rescaled plus the block's weights. -/
theorem pay11_apply :
    k0_pay11 (F := Ideal) ag x7 x8 xm xl (ix2 0 0)
      = k0_pay9 (F := Ideal) ag x7 x8 xm (ix2 0 0) * xl (ix2 0 0)
        + ∑ j : Fin 1600, k0_pay10 (F := Ideal) ag x7 x8 xm (ix2 j 0) := by
  unfold k0_pay11
  refine (cast_self_apply _ _ _).trans ?_
  show _ * _ + _ = _
  refine congrArg₂ (· + ·) rfl ?_
  exact (shapeCast_a_1a_apply _ _ 0 0).trans (Cert.Lib.ColumnSum.colsum_apply _ _ _ _ 0)

/-- The new weighted sums: the old ones rescaled plus the block's weighted rows. -/
theorem pay12_apply (c : Fin 512) :
    k0_pay12 (F := Ideal) h ag x7 x8 xm xacc (ix2 0 c)
      = k0_pay9 (F := Ideal) ag x7 x8 xm (ix2 0 0) * xacc (ix2 0 c)
        + ∑ j : Fin 1600, k0_pay10 (F := Ideal) ag x7 x8 xm (ix2 j 0) * h (ix2 j c) := by
  unfold k0_pay12
  refine (cast_self_apply _ _ _).trans ?_
  show _ * _ + _ = _
  refine congrArg₂ (· + ·) (congrArg₂ (· * ·) (broadcastTo_11_ab_apply _ _ 0 c) rfl) ?_
  exact cols_apply dot_S1600x1_S1600x512_S1x512_0_0_1_1_n_n rfl none _ h 0 c

/-- The three stored values are one step of the streaming pass from the three loaded ones, over the block's scores
    and hidden rows. -/
theorem scratch_step :
    (k0_pay13 (F := Ideal) ag x7 x8 xm (ix2 0 0), k0_pay11 (F := Ideal) ag x7 x8 xm xl (ix2 0 0),
        fun c : Fin 512 => k0_pay12 (F := Ideal) h ag x7 x8 xm xacc (ix2 0 c))
      = Cert.StreamLaw.step (xm (ix2 0 0), xl (ix2 0 0), fun c : Fin 512 => xacc (ix2 0 c))
          (fun j : Fin 1600 => k0_pay7 (F := Ideal) ag x7 x8 (ix2 j 0))
          (fun (j : Fin 1600) (c : Fin 512) => h (ix2 j c)) := by
  have hM := pay8_apply ag x7 x8 xm
  have h9 := pay9_apply ag x7 x8 xm
  have h10 := pay10_apply ag x7 x8 xm
  unfold Cert.StreamLaw.step
  refine congrArg₂ Prod.mk ?_ (congrArg₂ Prod.mk ?_ (funext fun c => ?_))
  · exact (pay13_apply ag x7 x8 xm).trans hM
  · rw [pay11_apply, h9, hM]
    exact congrArg₂ (· + ·) rfl (Finset.sum_congr rfl fun j _ => (h10 j).trans (by rw [hM]))
  · rw [pay12_apply, h9, hM]
    exact congrArg₂ (· + ·) rfl (Finset.sum_congr rfl fun j _ => congrArg₂ (· * ·) ((h10 j).trans (by rw [hM])) rfl)

end Step

end Cert.KernelIdeal.BodyMath

end
-- ==== Proof.Invariant.lean ====
/-
  What the carried buffers hold after each grid point, and what the last block of a batch writes out.

  After point t (block n = t % 25 of batch b = t / 25) the three carried buffers hold the one-pass state of batch b
  after n + 1 blocks: the running maximum of the scores, the sum of their exponentials against it, and per hidden
  coordinate the sum of exponentials times hidden values. By induction on the point: the first block of a batch
  starts from the reset values (−∞, 0, the zero row), every other block from what the block before left; one block
  is one step of the recursion, because the body's hidden rows and scores of its block of x are the specification's
  hidden rows and scores of those rows. At the last block the body divides the weighted sums by the sum and applies
  the classifier: the specification's one-pass result.
-/
import proofs.«157097_j71451075937077_2_alg».proof.Proof.Pieces
import proofs.«157097_j71451075937077_2_alg».proof.Proof.BlockRead
import proofs.«157097_j71451075937077_2_alg».proof.Proof.BodyMath1
import proofs.«157097_j71451075937077_2_alg».proof.Proof.BodyMath2
import proofs.«157097_j71451075937077_2_alg».proof.Proof.Spec

set_option maxRecDepth 16384

noncomputable section

open Idealize.ShloMosaic Idealize.ShloMosaic.TcCoe Idealize.SL.Sem
open Idealize.ShloMosaic.Pipeline (Dat)

namespace Cert.KernelIdeal.Invariant

open Cert.KernelIdeal Cert.KernelIdeal.Gen Idealize.ShloMosaic.ValueIdx Cert.KernelIdeal.BlockRead

variable (m : (ℓ : Loc nD τ sig) → Buf (Elt Ideal) ℓ)

/-- The body's hidden block at point t is the specification's hidden rows of the block's rows. -/
theorem hidBlk_apply (c : Dev nD) (t : Fin cfg0.N) (j : Fin 1600) (l : Fin 512) :
    (k0_pay5 (F := Ideal) (iblk m c 0 t) (iblk m c 1 t) (iblk m c 2 t)) (ix2 j l) = Cert.Spec.hid (args m c) (batchOf t) (Cert.Spec.rowOf (blockOf t) j) l := by
  refine (Cert.KernelIdeal.BodyMath.pay5_apply (iblk m c 0 t) (iblk m c 1 t) (iblk m c 2 t) j l).trans ?_
  unfold Cert.Spec.hid
  simp only [blk_x, blk_Wf, blk_bf]

/-- The body's gated block at point t is the specification's gated rows. -/
theorem gateBlk_apply (c : Dev nD) (t : Fin cfg0.N) (j : Fin 1600) (d : Fin 384) :
    (k0_pay6 (F := Ideal) (iblk m c 0 t) (iblk m c 1 t) (iblk m c 2 t) (iblk m c 3 t) (iblk m c 4 t) (iblk m c 5 t) (iblk m c 6 t)) (ix2 j d) = Cert.Spec.gate (args m c) (batchOf t) (Cert.Spec.rowOf (blockOf t) j) d := by
  refine (Cert.KernelIdeal.BodyMath.pay6_apply (iblk m c 0 t) (iblk m c 1 t) (iblk m c 2 t) (iblk m c 3 t) (iblk m c 4 t) (iblk m c 5 t) (iblk m c 6 t) j d).trans ?_
  unfold Cert.Spec.gate
  simp only [hidBlk_apply, blk_Wa, blk_ba, blk_Wb, blk_bb]

/-- The body's scores of its block at point t are the specification's scores of the block's rows. -/
theorem scoreBlk_apply (c : Dev nD) (t : Fin cfg0.N) (j : Fin 1600) :
    k0_pay7 (F := Ideal) (k0_pay6 (F := Ideal) (iblk m c 0 t) (iblk m c 1 t) (iblk m c 2 t) (iblk m c 3 t) (iblk m c 4 t) (iblk m c 5 t) (iblk m c 6 t)) (iblk m c 7 t) (iblk m c 8 t) (ix2 j 0) = Cert.Spec.score (args m c) (batchOf t) (Cert.Spec.rowOf (blockOf t) j) := by
  refine (Cert.KernelIdeal.BodyMath.pay7_apply (k0_pay6 (F := Ideal) (iblk m c 0 t) (iblk m c 1 t) (iblk m c 2 t) (iblk m c 3 t) (iblk m c 4 t) (iblk m c 5 t) (iblk m c 6 t)) (iblk m c 7 t) (iblk m c 8 t) j).trans ?_
  unfold Cert.Spec.score
  simp only [gateBlk_apply, blk_Wc, blk_bc]

/-- One run of the body's update is one step of the recursion over the block's rows, whatever the carried buffers
    held before. -/
theorem step_eq (c : Dev nD) (t : Fin cfg0.N) (xm xl : Vec Ideal S1x1 .f32) (xacc : Vec Ideal S1x512 .f32) :
    (k0_pay13 (F := Ideal) (k0_pay6 (F := Ideal) (iblk m c 0 t) (iblk m c 1 t) (iblk m c 2 t) (iblk m c 3 t) (iblk m c 4 t) (iblk m c 5 t) (iblk m c 6 t)) (iblk m c 7 t) (iblk m c 8 t) xm (ix2 0 0),
      k0_pay11 (F := Ideal) (k0_pay6 (F := Ideal) (iblk m c 0 t) (iblk m c 1 t) (iblk m c 2 t) (iblk m c 3 t) (iblk m c 4 t) (iblk m c 5 t) (iblk m c 6 t)) (iblk m c 7 t) (iblk m c 8 t) xm xl (ix2 0 0),
      fun cc : Fin 512 => k0_pay12 (F := Ideal) (k0_pay5 (F := Ideal) (iblk m c 0 t) (iblk m c 1 t) (iblk m c 2 t)) (k0_pay6 (F := Ideal) (iblk m c 0 t) (iblk m c 1 t) (iblk m c 2 t) (iblk m c 3 t) (iblk m c 4 t) (iblk m c 5 t) (iblk m c 6 t)) (iblk m c 7 t) (iblk m c 8 t) xm xacc (ix2 0 cc))
    = Cert.StreamLaw.step (xm (ix2 0 0), xl (ix2 0 0), fun cc : Fin 512 => xacc (ix2 0 cc))
        (fun j : Fin 1600 => Cert.Spec.score (args m c) (batchOf t) (Cert.Spec.rowOf (blockOf t) j))
        (fun (j : Fin 1600) (cc : Fin 512) => Cert.Spec.hid (args m c) (batchOf t) (Cert.Spec.rowOf (blockOf t) j) cc) := by
  refine (Cert.KernelIdeal.BodyMath.scratch_step (k0_pay5 (F := Ideal) (iblk m c 0 t) (iblk m c 1 t) (iblk m c 2 t)) (k0_pay6 (F := Ideal) (iblk m c 0 t) (iblk m c 1 t) (iblk m c 2 t) (iblk m c 3 t) (iblk m c 4 t) (iblk m c 5 t) (iblk m c 6 t)) (iblk m c 7 t) (iblk m c 8 t) xm xl xacc).trans ?_
  have e1 : (fun j : Fin 1600 => k0_pay7 (F := Ideal) (k0_pay6 (F := Ideal) (iblk m c 0 t) (iblk m c 1 t) (iblk m c 2 t) (iblk m c 3 t) (iblk m c 4 t) (iblk m c 5 t) (iblk m c 6 t)) (iblk m c 7 t) (iblk m c 8 t) (ix2 j 0))
      = fun j : Fin 1600 => Cert.Spec.score (args m c) (batchOf t) (Cert.Spec.rowOf (blockOf t) j) :=
    funext fun j => scoreBlk_apply m c t j
  have e2 : (fun (j : Fin 1600) (cc : Fin 512) => (k0_pay5 (F := Ideal) (iblk m c 0 t) (iblk m c 1 t) (iblk m c 2 t)) (ix2 j cc))
      = fun (j : Fin 1600) (cc : Fin 512) => Cert.Spec.hid (args m c) (batchOf t) (Cert.Spec.rowOf (blockOf t) j) cc :=
    funext fun j => funext fun cc => hidBlk_apply m c t j cc
  rw [e1, e2]

/-- The carried buffers of a tuple of the run's outputs, read at an index: (maximum, sum, weighted sums). -/
def carried (o : Vec Ideal S1x1x2 .f32 × Vec Ideal S1x512 .f32 × Vec Ideal S1x1 .f32 × Vec Ideal S1x1 .f32) :
    EReal × EReal × (Fin 512 → EReal) :=
  (o.2.2.1 (ix2 0 0), o.2.2.2 (ix2 0 0), fun cc : Fin 512 => o.2.1 (ix2 0 cc))

/-- The state of the recursion one block on. -/
theorem state_succ (A : Cert.Spec.Args) (b : Fin 2) (k : Fin 25) :
    Cert.Spec.state A b (k.val + 1) = Cert.StreamLaw.step (Cert.Spec.state A b k.val)
      (fun j : Fin 1600 => Cert.Spec.score A b (Cert.Spec.rowOf k j)) (fun (j : Fin 1600) (cc : Fin 512) => Cert.Spec.hid A b (Cert.Spec.rowOf k j) cc) :=
  Cert.StreamLaw.run_succ _ _ k.val k.isLt

/-- At the first block of a batch: the reset values, then one step. -/
theorem carried_first (c : Dev nD) (t : Fin cfg0.N) (h0 : t.val % 25 = 0) (h1 : ¬t.val % 25 = 24) :
    carried (outsAt0 m c t.val t.isLt) = Cert.Spec.state (args m c) (batchOf t) (t.val % 25 + 1) := by
  rw [outsAt0_A m c t h0 h1]
  unfold carried
  dsimp only
  rw [Cert.KernelIdeal.Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), Cert.KernelIdeal.Pieces.max_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), Cert.KernelIdeal.Pieces.sum_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)]
  refine (step_eq m c t (k0_pay3 (F := Ideal)) (k0_pay4 (F := Ideal)) (k0_pay2 (F := Ideal))).trans ?_
  rw [Cert.KernelIdeal.BodyMath.pay3_apply, Cert.KernelIdeal.BodyMath.pay4_apply]
  simp only [Cert.KernelIdeal.BodyMath.pay2_apply]
  have hs := state_succ (args m c) (batchOf t) (blockOf t)
  have hz : Cert.Spec.state (args m c) (batchOf t) (blockOf t).val = (⊥, 0, fun _ => 0) := by
    show Cert.Spec.state (args m c) (batchOf t) (t.val % 25) = _
    rw [h0]; rfl
  rw [hz] at hs
  exact hs.symm

/-- At any other block: what the block before left, then one step. -/
theorem carried_next (c : Dev nD) (t : Fin cfg0.N) (h0 : ¬t.val % 25 = 0)
    (ih : carried (outsAt0 m c (t.val - 1) (Nat.lt_of_le_of_lt (Nat.sub_le _ _) t.isLt)) = Cert.Spec.state (args m c) (batchOf t) (t.val % 25)) :
    carried (outsAt0 m c t.val t.isLt) = Cert.Spec.state (args m c) (batchOf t) (t.val % 25 + 1) := by
  have hstep : ∀ o, carried (outsAt0 m c t.val t.isLt) = Cert.StreamLaw.step (carried o)
        (fun j : Fin 1600 => Cert.Spec.score (args m c) (batchOf t) (Cert.Spec.rowOf (blockOf t) j))
        (fun (j : Fin 1600) (cc : Fin 512) => Cert.Spec.hid (args m c) (batchOf t) (Cert.Spec.rowOf (blockOf t) j) cc) →
      o = (outsAt0 m c (t.val - 1) (Nat.lt_of_le_of_lt (Nat.sub_le _ _) t.isLt)) → carried (outsAt0 m c t.val t.isLt) = Cert.Spec.state (args m c) (batchOf t) (t.val % 25 + 1) := by
    intro o h ho
    subst ho
    rw [h, ih]
    exact (state_succ (args m c) (batchOf t) (blockOf t)).symm
  refine hstep (outsAt0 m c (t.val - 1) (Nat.lt_of_le_of_lt (Nat.sub_le _ _) t.isLt)) ?_ rfl
  by_cases h1 : t.val % 25 = 24
  · rw [outsAt0_C m c t h0 h1]
    unfold carried
    dsimp only
    rw [Cert.KernelIdeal.Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Cert.KernelIdeal.Pieces.max_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Cert.KernelIdeal.Pieces.sum_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact step_eq m c t (outsAt0 m c (t.val - 1) (Nat.lt_of_le_of_lt (Nat.sub_le _ _) t.isLt)).2.2.1 (outsAt0 m c (t.val - 1) (Nat.lt_of_le_of_lt (Nat.sub_le _ _) t.isLt)).2.2.2 (outsAt0 m c (t.val - 1) (Nat.lt_of_le_of_lt (Nat.sub_le _ _) t.isLt)).2.1
  · rw [outsAt0_B m c t h0 h1]
    unfold carried
    dsimp only
    rw [Cert.KernelIdeal.Pieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Cert.KernelIdeal.Pieces.max_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Cert.KernelIdeal.Pieces.sum_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact step_eq m c t (outsAt0 m c (t.val - 1) (Nat.lt_of_le_of_lt (Nat.sub_le _ _) t.isLt)).2.2.1 (outsAt0 m c (t.val - 1) (Nat.lt_of_le_of_lt (Nat.sub_le _ _) t.isLt)).2.2.2 (outsAt0 m c (t.val - 1) (Nat.lt_of_le_of_lt (Nat.sub_le _ _) t.isLt)).2.1

/-- After every point the carried buffers hold the one-pass state of the point's batch after the point's block. -/
theorem carried_eq (c : Dev nD) : ∀ (n : ℕ) (hn : n < cfg0.N),
    carried (outsAt0 m c n hn) = Cert.Spec.state (args m c) (batchOf ⟨n, hn⟩) (n % 25 + 1)
  | 0, hn => carried_first m c ⟨0, hn⟩ rfl (by show ¬((0 : ℕ) % 25 = 24); omega)
  | n + 1, hn => by
    have hN : cfg0.N = 50 := N_0
    by_cases h0 : (n + 1) % 25 = 0
    · exact carried_first m c ⟨n + 1, hn⟩ h0 (by dsimp only; omega)
    · refine carried_next m c ⟨n + 1, hn⟩ h0 ?_
      have ih := carried_eq c n (Nat.lt_of_succ_lt hn)
      have hb : batchOf ⟨n, Nat.lt_of_succ_lt hn⟩ = batchOf ⟨n + 1, hn⟩ := Fin.ext (by show n / 25 = (n + 1) / 25; omega)
      have hk : n % 25 + 1 = (n + 1) % 25 := by omega
      rw [hb, hk] at ih
      exact ih

/-- At the last block of a batch the output block holds the one-pass result of the batch. -/
theorem out_eq (c : Dev nD) (t : Fin cfg0.N) (h1 : t.val % 25 = 24) (q : Fin 2) :
    (outsAt0 m c t.val t.isLt).1 (ix3 0 0 q) = Cert.Spec.outK (args m c) (batchOf t) q := by
  have h0 : ¬t.val % 25 = 0 := by omega
  have hc := carried_eq m c t.val t.isLt
  rw [outsAt0_C m c t h0 h1] at hc ⊢
  unfold carried at hc
  try dsimp only at hc
  try dsimp only
  rw [Cert.KernelIdeal.Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Cert.KernelIdeal.Pieces.sum_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2] at hc
  rw [Cert.KernelIdeal.Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  refine (Cert.KernelIdeal.BodyMath.pay1_apply _ _ (iblk m c 9 t) (iblk m c 10 t) q).trans ?_
  have hl := congrArg (fun s : EReal × EReal × (Fin 512 → EReal) => s.2.1) hc
  have ha := congrArg (fun s : EReal × EReal × (Fin 512 → EReal) => s.2.2) hc
  dsimp only at hl ha
  unfold Cert.Spec.outK Cert.Spec.pooledK
  rw [show t.val % 25 + 1 = 25 from by omega] at hl ha
  have ha' := fun cc : Fin 512 => congrFun ha cc
  try dsimp only at ha'
  simp only [hl, ha', blk_Wcls, blk_bcls]

end Cert.KernelIdeal.Invariant

end
-- ==== Proof.Region.lean ====
/-
  From the carried buffers to the kernel's result.

  The call's output array has one block per batch, written back at the batch's last block only; that block is the
  one-pass result of the batch, and the two blocks fill the array. The line after the call recasts the [2,1,2] array
  as [2,2]. So the kernel's result at (b, q) is the specification's one-pass result of batch b at class q.
-/
import proofs.«157097_j71451075937077_2_alg».proof.Proof.Invariant
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx Cert.KernelIdeal.BlockRead

variable (m : (ℓ : Loc nD τ sig) → Buf (Elt Ideal) ℓ) (ρ : Dev nD → PrngReg)

/-- The call's output array: entry (b, 0, q) is the one-pass result of batch b at class q. -/
def callOut (c : Dev nD) : FVec Ideal S2x1x2 .f32 := fun i => Cert.Spec.outK (args m c) (i 0) (i 2)

/-- The kernel's result: entry (b, q) is the one-pass result of batch b at class q. -/
def result (c : Dev nD) : FVec Ideal S2x2 .f32 := fun i => Cert.Spec.outK (args m c) (i 0) (i 1)

/-- The output's block index at point t is (batch, 0, 0). -/
theorem idx_out : ∀ t : Fin cfg0.N, win0_11.index t (0 : Fin 3) = t.val / 25 ∧ win0_11.index t (1 : Fin 3) = 0 ∧ win0_11.index t (2 : Fin 3) = 0 :=
  (by decide +kernel : ∀ t : Fin grid0.N, win0_11.index t (0 : Fin 3) = t.val / 25 ∧ win0_11.index t (1 : Fin 3) = 0 ∧ win0_11.index t (2 : Fin 3) = 0)

/-- What a batch's last block writes back is that batch's block of the output array. -/
theorem flushed_eq (c : Dev nD) (t : Fin cfg0.N) (hf : (cfg0.win 11).flush t = true) :
    (dats m 0 c).flushed 11 t = ((cfg0.win 11).blk t).view.read (Elt Ideal) (callOut m c) := by
  show (cfg0.win 11).cut (grid0.coords t) ((dats m 0 c).after 11 t) = _
  rw [after0_11]
  have h24 : t.val % 25 = 24 := (flush0_11 t).mp hf
  obtain ⟨e0, e1, e2⟩ := idx_out t
  refine funext fun (y : S1x1x2.Idx) => ?_
  obtain ⟨u, v, q, rfl⟩ : ∃ (u : Fin 1) (v : Fin 1) (q : Fin 2), y = ix3 u v q := ⟨y 0, y 1, y 2, eq_ix3 y⟩
  obtain rfl : u = 0 := Subsingleton.elim _ _
  obtain rfl : v = 0 := Subsingleton.elim _ _
  show (outsAt0 m c t.val t.isLt).1 (ix3 0 0 q) = callOut m c (((cfg0.win 11).blk t).view.emb (ix3 (0 : Fin 1) (0 : Fin 1) q))
  rw [Cert.KernelIdeal.Invariant.out_eq m c t h24 q]
  unfold callOut
  have hb : (((cfg0.win 11).blk t).view.emb (ix3 (0 : Fin 1) (0 : Fin 1) q)) 0 = batchOf t :=
    Fin.ext (by show win0_11.index t 0 * 1 + 1 * 0 = t.val / 25; rw [e0]; omega)
  have hq : (((cfg0.win 11).blk t).view.emb (ix3 (0 : Fin 1) (0 : Fin 1) q)) 2 = q :=
    Fin.ext (by show win0_11.index t 2 * 2 + 1 * q.val = q.val; rw [e2]; omega)
  rw [hb, hq]

/-- An index of the output array is in point t's block iff each coordinate is in the block's range on its axis. -/
theorem mem_blk (t : Fin cfg0.N) (i : S2x1x2.Idx) :
    i ∈ ((cfg0.win 11).blk t).view.set ↔ ∀ a : Fin 3, win0_11.index t a * S1x1x2.size a ≤ (i a).val ∧ (i a).val < win0_11.index t a * S1x1x2.size a + S1x1x2.size a := by
  show i ∈ ((View.whole main_v9).slice (win0_11.rect t)).set ↔ _
  rw [View.set_slice_whole, Rect.mem_set_unit]
  exact Iff.rfl

/-- The output array after the run: every entry lies in the block its batch's last point wrote back. -/
theorem final (c : Dev nD) : (dats m 0 c).arrAt 11 cfg0.N = callOut m c :=
  (dats m 0 c).arrAt_eq_of_cover 11 (callOut m c) (flushed_eq m c) fun i => by
    have hN : cfg0.N = 50 := N_0
    have hi0 : (i 0).val < 2 := (i 0).isLt
    have hi1 : (i 1).val < 1 := (i 1).isLt
    have hi2 : (i 2).val < 2 := (i 2).isLt
    have hlt : (i 0).val * 25 + 24 < cfg0.N := by omega
    obtain ⟨e0, e1, e2⟩ := idx_out ⟨(i 0).val * 25 + 24, hlt⟩
    refine ⟨⟨(i 0).val * 25 + 24, hlt⟩, (flush0_11 _).mpr (by show ((i 0).val * 25 + 24) % 25 = 24; omega), ?_⟩
    rw [mem_blk]
    intro a
    match a with
    | ⟨0, _⟩ =>
      show win0_11.index ⟨(i 0).val * 25 + 24, hlt⟩ 0 * 1 ≤ (i 0).val ∧ (i 0).val < win0_11.index ⟨(i 0).val * 25 + 24, hlt⟩ 0 * 1 + 1
      rw [e0]; show ((i 0).val * 25 + 24) / 25 * 1 ≤ (i 0).val ∧ (i 0).val < ((i 0).val * 25 + 24) / 25 * 1 + 1; omega
    | ⟨1, _⟩ =>
      show win0_11.index ⟨(i 0).val * 25 + 24, hlt⟩ 1 * 1 ≤ (i 1).val ∧ (i 1).val < win0_11.index ⟨(i 0).val * 25 + 24, hlt⟩ 1 * 1 + 1
      rw [e1]; omega
    | ⟨2, _⟩ =>
      show win0_11.index ⟨(i 0).val * 25 + 24, hlt⟩ 2 * 2 ≤ (i 2).val ∧ (i 2).val < win0_11.index ⟨(i 0).val * 25 + 24, hlt⟩ 2 * 2 + 2
      rw [e2]; omega

/-- A [2,1,2] array recast as [2,2] reads, at (b, q), the operand at (b, 0, q). -/
theorem recast_apply (x : FVec Ideal S2x1x2 .f32) (b q : Fin 2) :
    shapeCast S2x2 x shapeCasts_S2x1x2_S2x2 (ix2 b q) = x (ix3 b (0 : Fin 1) q) :=
  shapeCast_apply x shapeCasts_S2x1x2_S2x2 _ _ (by
    rw [Shape.rowMajor_val_three, Shape.rowMajor_val_two]
    show (b.val * 1 + 0) * 2 + q.val = b.val * 2 + q.val
    omega)

/-- The line after the call leaves the result. -/
theorem tail_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  refine funext fun i => ?_
  show shapeCast S2x2 (Pipeline.withArrays (cfgs 0).spec c (V0 m c) (fun w => (dats m 0 c).arrAt w (cfgs 0).N) (Proc.devRef .tc main_v9)) shapeCasts_S2x1x2_S2x2 i = result m c i
  rw [show Pipeline.withArrays (cfgs 0).spec c (V0 m c) (fun w => (dats m 0 c).arrAt w (cfgs 0).N) (Proc.devRef .tc main_v9) = callOut m c from
    (Pipeline.withArrays_arr spec0 launch0.win.arr_inj c _ _ 11).trans (final m c)]
  obtain ⟨b, q, rfl⟩ : ∃ (b q : Fin 2), i = ix2 b q := ⟨i 0, i 1, eq_ix2 i⟩
  exact recast_apply (callOut m c) b q

/-- The kernel's run, read: the result array at the one-pass result, the arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v10 (Pipeline.mem_restRefs_of main_v10 (by decide) (by decide))).trans (tail_eq m c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 9).trans ((((dats m) 0 c).arrAt_in 9 rfl _).trans ((A_eq m c 9).trans (V_main_arg9 m c))),
      (((h c).2 main_arg10 (Pipeline.mem_restRefs_of main_arg10 (by decide) (by decide))).trans (W_main_arg10 m (dats m) c))⟩)
    (run_main m ρ)

end Cert.KernelIdeal.Region

end
-- ==== Proof.RefValue.lean ====
/-
  The reference program's result is the specification's `outR` of its eleven argument arrays, index by index.

  The program is read one operation at a time: the hidden row is relu (x · Wf + bf); the gated row is the product of
  tanh (hid · Wa + ba) and 1 / (1 + exp (−(hid · Wb + bb))), which is the logistic function; the score is
  gate · Wc + bc, transposed so that a batch's scores lie along the last axis; the row maximum is the fold of max from
  −∞ over that axis, taken against −∞ once more; the weight is exp (score − max) divided by 0 plus the sum of those
  exponentials; the pooled row is the weights times the hidden rows, summed over the rows of the batch; the result is
  pooled · Wcls + bcls.
-/
import proofs.«157097_j71451075937077_2_alg».proof.Proof.Spec
import proofs.«157097_j71451075937077_2_alg».proof.Proof.Gen.ReferenceIdeal.Read

open scoped BigOperators

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The eleven argument buffers of a device, in the order of the program's parameters. -/
def args (m : (ℓ : Loc nD τ sig) → Buf (Elt Ideal) ℓ) (c : Dev nD) : Cert.Spec.Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6), m ((c.tc : Thread nD τ).loc main_arg7),
   m ((c.tc : Thread nD τ).loc main_arg8), m ((c.tc : Thread nD τ).loc main_arg9),
   m ((c.tc : Thread nD τ).loc main_arg10)⟩

open Cert.ReferenceIdeal.Read

/-! ### The hidden row -/

theorem lidx_v0 (b : Fin 2) (n : Fin 40000) (l : Fin 512) (k : Fin 1024) :
    lidx_main_v0 (ix3 b n l) k = ix3 b n k :=
  funext fun a => Fin.ext (by match a with | ⟨0, _⟩ => rfl | ⟨1, _⟩ => rfl | ⟨2, _⟩ => rfl)

theorem ridx_v0 (b : Fin 2) (n : Fin 40000) (l : Fin 512) (k : Fin 1024) :
    ridx_main_v0 (ix3 b n l) k = ix2 k l :=
  funext fun a => Fin.ext (by match a with | ⟨0, _⟩ => rfl | ⟨1, _⟩ => rfl)

theorem idx_v1v2 (b : Fin 2) (n : Fin 40000) (l : Fin 512) :
    idx_main_v1 (idx_main_v2 (ix3 b n l)) = ix1 l :=
  funext fun a => Fin.ext (by match a with | ⟨0, _⟩ => rfl)

/-- The hidden row: relu (x[b,n,:] · Wf + bf) at coordinate l. -/
theorem hid_eq (A : Cert.Spec.Args) (b : Fin 2) (n : Fin 40000) (l : Fin 512) :
    val_main_v4 (F := Ideal) A.x A.Wf A.bf (ix3 b n l) = Cert.Spec.hid A b n l := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx_v0, ridx_v0, idx_v1v2]
  rfl

/-! ### The gated row and the score -/

/-- The pattern 0x3F800000 is the number one. -/
theorem one_f32 : Ideal.ofBits .f32 0x3F800000#32 = 1 := by
  simp [Ideal.ofBits, Ideal.ieee, -EReal.coe_mul]; norm_num

theorem lidx_v5 (b : Fin 2) (n : Fin 40000) (d : Fin 384) (k : Fin 512) :
    lidx_main_v5 (ix3 b n d) k = ix3 b n k :=
  funext fun a => Fin.ext (by match a with | ⟨0, _⟩ => rfl | ⟨1, _⟩ => rfl | ⟨2, _⟩ => rfl)

theorem ridx_v5 (b : Fin 2) (n : Fin 40000) (d : Fin 384) (k : Fin 512) :
    ridx_main_v5 (ix3 b n d) k = ix2 k d :=
  funext fun a => Fin.ext (by match a with | ⟨0, _⟩ => rfl | ⟨1, _⟩ => rfl)

theorem idx_v6v7 (b : Fin 2) (n : Fin 40000) (d : Fin 384) :
    idx_main_v6 (idx_main_v7 (ix3 b n d)) = ix1 d :=
  funext fun a => Fin.ext (by match a with | ⟨0, _⟩ => rfl)

theorem lidx_v10 (b : Fin 2) (n : Fin 40000) (d : Fin 384) (k : Fin 512) :
    lidx_main_v10 (ix3 b n d) k = ix3 b n k :=
  funext fun a => Fin.ext (by match a with | ⟨0, _⟩ => rfl | ⟨1, _⟩ => rfl | ⟨2, _⟩ => rfl)

theorem ridx_v10 (b : Fin 2) (n : Fin 40000) (d : Fin 384) (k : Fin 512) :
    ridx_main_v10 (ix3 b n d) k = ix2 k d :=
  funext fun a => Fin.ext (by match a with | ⟨0, _⟩ => rfl | ⟨1, _⟩ => rfl)

theorem idx_v11v12 (b : Fin 2) (n : Fin 40000) (d : Fin 384) :
    idx_main_v11 (idx_main_v12 (ix3 b n d)) = ix1 d :=
  funext fun a => Fin.ext (by match a with | ⟨0, _⟩ => rfl)

/-- The gated row: tanh (hid · Wa + ba) times 1 / (1 + exp (−(hid · Wb + bb))), the logistic function. -/
theorem gate_eq (A : Cert.Spec.Args) (b : Fin 2) (n : Fin 40000) (d : Fin 384) :
    val_main_v20 (F := Ideal) A.x A.Wf A.bf A.Wa A.ba A.Wb A.bb (ix3 b n d) = Cert.Spec.gate A b n d := by
  rw [val_main_v20_apply, val_main_v9_apply, val_main_v8_apply, val_main_v5_apply, val_main_v7_apply,
    val_main_v6_apply, val_main_v19_apply, val_main_v18_apply, val_main_cst_0_apply, val_main_v17_apply,
    val_main_v16_apply, val_main_cst_apply, val_main_v15_apply, val_main_v14_apply, val_main_v13_apply,
    val_main_v10_apply, val_main_v12_apply, val_main_v11_apply]
  simp only [Ideal.mulf_def, Ideal.addf_def, Ideal.hostDivf_def, Ideal.hostUnary_tanh_def, Ideal.hostUnary_exp_def,
    Ideal.hostNegf_def, Ideal.negf_def, Ideal.ofBits_def, one_f32, lidx_v5, ridx_v5, idx_v6v7, lidx_v10, ridx_v10,
    idx_v11v12, hid_eq]
  rfl

theorem lidx_v21 (b : Fin 2) (n : Fin 40000) (k : Fin 384) :
    lidx_main_v21 (ix3 b n (0 : Fin 1)) k = ix3 b n k :=
  funext fun a => Fin.ext (by match a with | ⟨0, _⟩ => rfl | ⟨1, _⟩ => rfl | ⟨2, _⟩ => rfl)

theorem ridx_v21 (b : Fin 2) (n : Fin 40000) (k : Fin 384) :
    ridx_main_v21 (ix3 b n (0 : Fin 1)) k = ix2 k (0 : Fin 1) :=
  funext fun a => Fin.ext (by match a with | ⟨0, _⟩ => rfl | ⟨1, _⟩ => rfl)

theorem idx_v22v23 (b : Fin 2) (n : Fin 40000) :
    idx_main_v22 (idx_main_v23 (ix3 b n (0 : Fin 1))) = ix1 (0 : Fin 1) :=
  funext fun a => Fin.ext (by match a with | ⟨0, _⟩ => rfl)

/-- The score of row n of batch b: gate · Wc + bc. -/
theorem score_eq (A : Cert.Spec.Args) (b : Fin 2) (n : Fin 40000) :
    val_main_v24 (F := Ideal) A.x A.Wf A.bf A.Wa A.ba A.Wb A.bb A.Wc A.bc (ix3 b n (0 : Fin 1))
      = Cert.Spec.score A b n := by
  rw [val_main_v24_apply, val_main_v21_apply, val_main_v23_apply, val_main_v22_apply]
  simp only [Ideal.addf_def, lidx_v21, ridx_v21, idx_v22v23, gate_eq]
  rfl

theorem idx_v25 (b : Fin 2) (n : Fin 40000) :
    idx_main_v25 (ix3 b (0 : Fin 1) n) = ix3 b n (0 : Fin 1) :=
  funext fun a => Fin.ext (by match a with | ⟨0, _⟩ => rfl | ⟨1, _⟩ => rfl | ⟨2, _⟩ => rfl)

/-- The transposed scores: a batch's scores along the last axis. -/
theorem scoreT_eq (A : Cert.Spec.Args) (b : Fin 2) (n : Fin 40000) :
    val_main_v25 (F := Ideal) A.x A.Wf A.bf A.Wa A.ba A.Wb A.bb A.Wc A.bc (ix3 b (0 : Fin 1) n)
      = Cert.Spec.score A b n := by
  rw [val_main_v25_apply, idx_v25, score_eq]

/-! ### The row maximum and the softmax weights -/

/-- The pattern 0xFF800000 is −∞. -/
theorem bot_f32 : Ideal.ofBits .f32 0xFF800000#32 = ⊥ := by simp [Ideal.ofBits, Ideal.ieee]

/-- The reduced index (b, 0) with coordinate k put back on the last axis is (b, 0, k). -/
theorem lift_last (hr : S2x1x40000.Reduces [2] S2x1) (b : Fin 2) (k : Fin (S2x1x40000.size 2)) :
    hr.lift (ix2 b (0 : Fin 1)) k = ix3 b (0 : Fin 1) (⟨k.val, k.isLt⟩ : Fin 40000) := by
  funext d; apply Fin.ext
  match d with
  | ⟨0, _⟩ => rfl
  | ⟨1, _⟩ => rfl
  | ⟨2, _⟩ => rfl

/-- The reduction with a maximum body from −∞ over the last axis is, at batch b, the fold of max from −∞ over the
    batch's scores. -/
theorem foldMax_eq (A : Cert.Spec.Args) (b : Fin 2) :
    val_main_v26 (F := Ideal) A.x A.Wf A.bf A.Wa A.ba A.Wb A.bb A.Wc A.bc (ix2 b (0 : Fin 1))
      = (Finset.univ : Finset (Fin 40000)).fold max ⊥ (fun n => Cert.Spec.score A b n) := by
  have hr : S2x1x40000.Reduces [2] S2x1 := by decide
  unfold val_main_v26
  refine (Host.reduce_eq_fold_single FloatOps.maximumf _ _ reducesTo_S2x1x40000_S2x1_d2 hr h_S_ _).trans ?_
  have h0 : val_main_cst_1 (F := Ideal) (Shape.Idx.first h_S_) = ⊥ := bot_f32
  have hf : (val_main_v25 (F := Ideal) A.x A.Wf A.bf A.Wa A.ba A.Wb A.bb A.Wc A.bc ∘ hr.lift (ix2 b (0 : Fin 1)))
      = fun n : Fin 40000 => Cert.Spec.score A b n :=
    funext fun k => (congrArg _ (lift_last hr b k)).trans (scoreT_eq A b _)
  exact congrArg₂ (fun e f => Finset.fold max e f (Finset.univ : Finset (Fin 40000))) h0 hf

/-- The maximum of a batch's scores, taken against −∞ once more. -/
theorem rowMax_eq (A : Cert.Spec.Args) (b : Fin 2) :
    val_main_v28 (F := Ideal) A.x A.Wf A.bf A.Wa A.ba A.Wb A.bb A.Wc A.bc (ix2 b (0 : Fin 1))
      = Cert.Spec.rowMax A b := by
  rw [val_main_v28_apply, val_main_v27_apply, val_main_cst_2_apply, foldMax_eq]
  simp only [Ideal.maximumf_def, Ideal.ofBits_def, bot_f32]
  rfl

theorem idx_v29v30 (b : Fin 2) (n : Fin 40000) :
    idx_main_v29 (idx_main_v30 (ix3 b (0 : Fin 1) n)) = ix2 b (0 : Fin 1) :=
  funext fun a => Fin.ext (by match a with | ⟨0, _⟩ => rfl | ⟨1, _⟩ => rfl)

/-- The exponential of a score less the row maximum. -/
theorem expT_eq (A : Cert.Spec.Args) (b : Fin 2) (n : Fin 40000) :
    val_main_v32 (F := Ideal) A.x A.Wf A.bf A.Wa A.ba A.Wb A.bb A.Wc A.bc (ix3 b (0 : Fin 1) n)
      = Ideal.exp (Cert.Spec.score A b n - Cert.Spec.rowMax A b) := by
  rw [val_main_v32_apply, val_main_v31_apply, val_main_v30_apply, val_main_v29_apply, idx_v29v30, rowMax_eq,
    scoreT_eq]
  simp only [Ideal.hostUnary_exp_def, Ideal.subf_def]

theorem idx_v33 (b : Fin 2) (k : Fin 40000) :
    idx_main_v33 (ix2 b (0 : Fin 1)) k = ix3 b (0 : Fin 1) k :=
  funext fun a => Fin.ext (by match a with | ⟨0, _⟩ => rfl | ⟨1, _⟩ => rfl | ⟨2, _⟩ => rfl)

/-- The sum of the exponentials, from the initial value 0. -/
theorem sumExp_eq (A : Cert.Spec.Args) (b : Fin 2) :
    val_main_v33 (F := Ideal) A.x A.Wf A.bf A.Wa A.ba A.Wb A.bb A.Wc A.bc (ix2 b (0 : Fin 1))
      = 0 + ∑ n' : Fin 40000, Ideal.exp (Cert.Spec.score A b n' - Cert.Spec.rowMax A b) := by
  rw [val_main_v33_apply, val_main_cst_3_apply]
  simp only [Ideal.ofBits_def, Ideal.ofBits_zero_f32, idx_v33, expT_eq]

theorem idx_v34v35 (b : Fin 2) (n : Fin 40000) :
    idx_main_v34 (idx_main_v35 (ix3 b (0 : Fin 1) n)) = ix2 b (0 : Fin 1) :=
  funext fun a => Fin.ext (by match a with | ⟨0, _⟩ => rfl | ⟨1, _⟩ => rfl)

/-- The softmax weight of row n. -/
theorem weight_eq (A : Cert.Spec.Args) (b : Fin 2) (n : Fin 40000) :
    val_main_v36 (F := Ideal) A.x A.Wf A.bf A.Wa A.ba A.Wb A.bb A.Wc A.bc (ix3 b (0 : Fin 1) n)
      = Cert.Spec.weight A b n := by
  rw [val_main_v36_apply, val_main_v35_apply, val_main_v34_apply, idx_v34v35, sumExp_eq, expT_eq]
  simp only [Ideal.hostDivf_def]
  rfl

/-! ### The pooled row and the result -/

theorem lidx_v37 (b : Fin 2) (c' : Fin 512) (k : Fin 40000) :
    lidx_main_v37 (ix3 b (0 : Fin 1) c') k = ix3 b (0 : Fin 1) k :=
  funext fun a => Fin.ext (by match a with | ⟨0, _⟩ => rfl | ⟨1, _⟩ => rfl | ⟨2, _⟩ => rfl)

theorem ridx_v37 (b : Fin 2) (c' : Fin 512) (k : Fin 40000) :
    ridx_main_v37 (ix3 b (0 : Fin 1) c') k = ix3 b k c' :=
  funext fun a => Fin.ext (by match a with | ⟨0, _⟩ => rfl | ⟨1, _⟩ => rfl | ⟨2, _⟩ => rfl)

/-- The pooled row: the weights times the hidden rows, summed over the rows of the batch. -/
theorem pooled3_eq (A : Cert.Spec.Args) (b : Fin 2) (c' : Fin 512) :
    val_main_v37 (F := Ideal) A.x A.Wf A.bf A.Wa A.ba A.Wb A.bb A.Wc A.bc (ix3 b (0 : Fin 1) c')
      = Cert.Spec.pooledR A b c' := by
  rw [val_main_v37_apply]
  simp only [lidx_v37, ridx_v37, weight_eq, hid_eq]
  rfl

/-- Entry (b, c) of the [2,512] array is entry (b, 0, c) of the [2,1,512] one: b · 512 + c is split by 512. -/
theorem idx_v38 (b : Fin 2) (c' : Fin 512) :
    idx_main_v38 (ix2 b c') = ix3 b (0 : Fin 1) c' :=
  funext fun a => Fin.ext (by
    have hb : b.val < 2 := b.isLt
    have hc : c'.val < 512 := c'.isLt
    match a with
    | ⟨0, _⟩ => show (b.val * 512 + c'.val) / 512 = b.val; omega
    | ⟨1, _⟩ => rfl
    | ⟨2, _⟩ => show (b.val * 512 + c'.val) % 512 = c'.val; omega)

theorem pooled_eq (A : Cert.Spec.Args) (b : Fin 2) (c' : Fin 512) :
    val_main_v38 (F := Ideal) A.x A.Wf A.bf A.Wa A.ba A.Wb A.bb A.Wc A.bc (ix2 b c')
      = Cert.Spec.pooledR A b c' := by
  rw [val_main_v38_apply, idx_v38, pooled3_eq]

theorem lidx_v39 (b q : Fin 2) (k : Fin 512) : lidx_main_v39 (ix2 b q) k = ix2 b k :=
  funext fun a => Fin.ext (by match a with | ⟨0, _⟩ => rfl | ⟨1, _⟩ => rfl)

theorem ridx_v39 (b q : Fin 2) (k : Fin 512) : ridx_main_v39 (ix2 b q) k = ix2 k q :=
  funext fun a => Fin.ext (by match a with | ⟨0, _⟩ => rfl | ⟨1, _⟩ => rfl)

theorem idx_v40v41 (b q : Fin 2) : idx_main_v40 (idx_main_v41 (ix2 b q)) = ix1 q :=
  funext fun a => Fin.ext (by match a with | ⟨0, _⟩ => rfl)

/-- The result: pooled · Wcls + bcls. -/
theorem out_eq (A : Cert.Spec.Args) (b q : Fin 2) :
    val_main_v42 (F := Ideal) A.x A.Wf A.bf A.Wa A.ba A.Wb A.bb A.Wc A.bc A.Wcls A.bcls (ix2 b q)
      = Cert.Spec.outR A b q := by
  rw [val_main_v42_apply, val_main_v39_apply, val_main_v41_apply, val_main_v40_apply]
  simp only [Ideal.addf_def, lidx_v39, ridx_v39, idx_v40v41, pooled_eq]
  rfl

/-- The reference program's result is `outR` of its arguments, index by index. -/
theorem res_eq (m : (ℓ : Loc nD τ sig) → Buf (Elt Ideal) ℓ) (c : Dev nD) :
    Cert.ReferenceIdeal.Value.res_out0 (F := Ideal) m c
      = fun i => Cert.Spec.outR (args m c) (i 0) (i 1) := by
  funext i
  refine (congrFun (val_main_v42_eq (F := Ideal) m c) i).trans ?_
  exact (congrArg _ (eq_ix2 i)).trans (out_eq (args m c) (i 0) (i 1))

end Cert.ReferenceIdeal.RefValue

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.Finite.lean ====
/-
  Finiteness. The precondition says of each of the eleven argument arrays that every entry has absolute value strictly
  below +∞. On the extended reals that is: every entry is a real number. For real arguments the specification's hidden
  values and scores are real numbers too: they are built from sums, products, maxima, tanh and the logistic function,
  each of which takes reals to reals.
-/
import proofs.«157097_j71451075937077_2_alg».proof.Proof.Spec
import proofs.«157097_j71451075937077_2_alg».proof.Pre_finite_inputs
import Idealize.ShloMosaic.Lib.ReduceAll
import proofs.«157097_j71451075937077_2_alg».proof.Proof.LibAggLinear

open scoped BigOperators

noncomputable section

namespace Cert.Finite

open Idealize.ShloMosaic Idealize.ShloMosaic.ValueIdx Cert.Pre_finite_inputs

/-- The shape of rank zero has one index. -/
instance : Subsingleton S_.Idx := ⟨fun a b => funext fun d => d.elim0⟩

/-- An extended real whose absolute value max x (−x) lies strictly below +∞ (the pattern 0x7F800000) is a real number:
    x = +∞ and x = −∞ both have absolute value +∞. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hinf : Ideal.ofBits .f32 0x7F800000#32 = ⊤ := by simp [Ideal.ofBits, Ideal.ieee]
  have h' : Ideal.cmp .olt (max x (-x)) ⊤ = 1#1 := by rw [← hinf]; exact h
  have hlt : max x (-x) < ⊤ := by
    by_contra hn
    simp [Ideal.cmp, hn] at h'
  have h1 : x ≠ ⊤ := fun e => by rw [e] at hlt; simp at hlt
  have h2 : x ≠ ⊥ := fun e => by rw [e] at hlt; simp at hlt
  exact ⟨x.toReal, (EReal.coe_toReal h1 h2).symm⟩

/-- The conjunction over all entries of |x| < +∞, read back: every entry of the array is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) (i : s.Idx) : ∃ r : ℝ, x i = (r : EReal) :=
  real_of_abs_lt (x i) (Host.reduce_andi_all _ _ hr hu j e i)

/-- The precondition is the conjunction of the eleven arrays' conditions; each gives that its array is real. -/
theorem isReal_of_pre [Cert.Pre_finite_inputs.Facts] (A : Cert.Spec.Args)
    (h : Cert.Pre_finite_inputs.fn (F := Ideal) A.x A.Wf A.bf A.Wa A.ba A.Wb A.bb A.Wc A.bc A.Wcls A.bcls = (fun _ => 1#1)) :
    Cert.Spec.IsReal A := by
  have h0 := congrFun h ix0
  dsimp only [fn, fn_part1, fn_part2, fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨all_real _ _ _ _ _ e0, all_real _ _ _ _ _ e1, all_real _ _ _ _ _ e2, all_real _ _ _ _ _ e3,
    all_real _ _ _ _ _ e4, all_real _ _ _ _ _ e5, all_real _ _ _ _ _ e6, all_real _ _ _ _ _ e7,
    all_real _ _ _ _ _ e8, all_real _ _ _ _ _ e9, all_real _ _ _ _ _ e10⟩

/-! ### The specification's values on real arguments

  A real extended real (`Cert.Lib.AggLinear.IsReal`) is one of the form ↑r; reals are closed under +, ·, max and
  finite sums, and tanh and the logistic function of a real are reals. -/

open Cert.Lib.AggLinear

/-- The hidden value relu (x[b,n,:] · Wf + bf) is a real number. -/
theorem hid_isReal (A : Cert.Spec.Args) (hA : Cert.Spec.IsReal A) (b : Fin 2) (n : Fin 40000) (l : Fin 512) :
    IsReal (Cert.Spec.hid A b n l) := by
  unfold Cert.Spec.hid
  exact IsReal.max (IsReal.add (IsReal.sum _ _ fun k _ => IsReal.mul (hA.x _) (hA.Wf _)) (hA.bf _)) isReal_zero

/-- The gated value tanh (hid · Wa + ba) · logistic (hid · Wb + bb) is a real number. -/
theorem gate_isReal (A : Cert.Spec.Args) (hA : Cert.Spec.IsReal A) (b : Fin 2) (n : Fin 40000) (d : Fin 384) :
    IsReal (Cert.Spec.gate A b n d) := by
  obtain ⟨u, hu⟩ : IsReal (∑ k : Fin 512, Cert.Spec.hid A b n k * A.Wa (ix2 k d) + A.ba (ix1 d)) :=
    IsReal.add (IsReal.sum _ _ fun k _ => IsReal.mul (hid_isReal A hA b n k) (hA.Wa _)) (hA.ba _)
  obtain ⟨v, hv⟩ : IsReal (∑ k : Fin 512, Cert.Spec.hid A b n k * A.Wb (ix2 k d) + A.bb (ix1 d)) :=
    IsReal.add (IsReal.sum _ _ fun k _ => IsReal.mul (hid_isReal A hA b n k) (hA.Wb _)) (hA.bb _)
  unfold Cert.Spec.gate
  rw [hu, hv, Ideal.tanh_coe, Ideal.logistic_coe]
  exact IsReal.mul (isReal_coe _) (isReal_coe _)

/-- The score gate · Wc + bc is a real number. -/
theorem score_isReal (A : Cert.Spec.Args) (hA : Cert.Spec.IsReal A) (b : Fin 2) (n : Fin 40000) :
    IsReal (Cert.Spec.score A b n) := by
  unfold Cert.Spec.score
  exact IsReal.add (IsReal.sum _ _ fun d _ => IsReal.mul (gate_isReal A hA b n d) (hA.Wc _)) (hA.bc _)

theorem hid_real (A : Cert.Spec.Args) (hA : Cert.Spec.IsReal A) (b : Fin 2) (n : Fin 40000) (l : Fin 512) :
    ∃ r : ℝ, Cert.Spec.hid A b n l = (r : EReal) := hid_isReal A hA b n l

theorem score_real (A : Cert.Spec.Args) (hA : Cert.Spec.IsReal A) (b : Fin 2) (n : Fin 40000) :
    ∃ r : ℝ, Cert.Spec.score A b n = (r : EReal) := score_isReal A hA b n

end Cert.Finite

end
-- ==== Proof.Agree.lean ====
/-
  The two output forms of the specification agree on real arguments. For real arguments every score and every hidden
  value is a real number, so the one-pass form of the pooled row (running maximum, rescaled sums, one division at the
  end) equals the form with the whole row's maximum taken first: that is the streaming law, applied to the enumeration
  of the 40000 rows as 25 blocks of 1600. The results are the same affine function of the pooled row.
-/
import proofs.«157097_j71451075937077_2_alg».proof.Proof.Spec
import proofs.«157097_j71451075937077_2_alg».proof.Proof.Finite

open scoped BigOperators

noncomputable section

namespace Cert.Agree

open Idealize.ShloMosaic Idealize.ShloMosaic.ValueIdx Cert.Spec

/-- The pooled row of the one pass is the pooled row with the whole row's maximum taken first. -/
theorem pooledK_eq_pooledR (A : Args) (hA : IsReal A) (b : Fin 2) (c : Fin 512) : pooledK A b c = pooledR A b c :=
  Cert.StreamLaw.run_div_eq (T := 25) (B := 1600) (by norm_num) (by norm_num) rowEquiv (fun n => score A b n)
    (fun n c => hid A b n c) (fun n => Cert.Finite.score_real A hA b n) (fun n c => Cert.Finite.hid_real A hA b n c) c

theorem outK_eq_outR (A : Args) (hA : IsReal A) (b q : Fin 2) : outK A b q = outR A b q := by
  unfold outK outR
  simp only [pooledK_eq_pooledR A hA b]

end Cert.Agree

end
-- ==== Proof.lean ====
/-
  A gated-attention pooling kernel against its reference, on the extended reals.

  Both programs compute, per batch b, a hidden row hid = relu (x · Wf + bf) and a score
  s = (tanh (hid · Wa + ba) · logistic (hid · Wb + bb)) · Wc + bc for each of the 40000 rows, pool the hidden rows with
  the softmax of the scores, and apply a classifier: pooled · Wcls + bcls. The reference takes the maximum of all
  scores first, then the exponentials, their sum, the weights and the weighted sum. The kernel goes over the rows
  once, in 25 blocks of 1600, carrying a running maximum m, the sum l of exp (s − m) and the sums acc of
  exp (s − m) · hid; when a block raises the maximum from m to m' it first multiplies l and acc by exp (m − m'), and
  after the last block it divides acc by l.

  On the extended reals the two agree when every input is a real number: then every hidden value and score is real,
  exp (m − m') · exp (s − m) = exp (s − m'), the first block's factor exp (−∞ − m') is 0 against the initial 0, the
  final sum of exponentials is positive, and dividing a sum by it is dividing each term. Changes of float format are
  the identity here, the body's matrix products and the reference's contractions are the same sums, and the kernel's
  logistic is the reference's 1 / (1 + exp (−·)).

  The three frames are the generated ones (the reference's is its generated run with the result dropped); no
  operation was rewritten for the idealized kernel, so that conjunct is trivial.
-/
import proofs.«157097_j71451075937077_2_alg».proof.Defs
import proofs.«157097_j71451075937077_2_alg».proof.Proof.Gen.Kernel
import proofs.«157097_j71451075937077_2_alg».proof.Proof.Gen.Kernel.Skeleton
import proofs.«157097_j71451075937077_2_alg».proof.Proof.Gen.Kernel.Launch
import proofs.«157097_j71451075937077_2_alg».proof.Proof.Gen.Kernel.Points
import proofs.«157097_j71451075937077_2_alg».proof.Proof.Gen.Kernel.Frame
import proofs.«157097_j71451075937077_2_alg».proof.Proof.Gen.KernelIdeal
import proofs.«157097_j71451075937077_2_alg».proof.Proof.Gen.KernelIdeal.Skeleton
import proofs.«157097_j71451075937077_2_alg».proof.Proof.Gen.KernelIdeal.Launch
import proofs.«157097_j71451075937077_2_alg».proof.Proof.Gen.KernelIdeal.Points
import proofs.«157097_j71451075937077_2_alg».proof.Proof.Gen.KernelIdeal.Frame
import proofs.«157097_j71451075937077_2_alg».proof.Proof.Gen.ReferenceIdeal
import proofs.«157097_j71451075937077_2_alg».proof.Proof.Gen.Pre_finite_inputs
import proofs.«157097_j71451075937077_2_alg».proof.Proof.Gen.ReferenceIdeal.Run
import proofs.«157097_j71451075937077_2_alg».proof.Proof.Gen.ReferenceIdeal.Read
import proofs.«157097_j71451075937077_2_alg».proof.Proof.Region
import proofs.«157097_j71451075937077_2_alg».proof.Proof.RefValue
import proofs.«157097_j71451075937077_2_alg».proof.Proof.Finite
import proofs.«157097_j71451075937077_2_alg».proof.Proof.Agree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel ends at the one-pass result of its arguments, the reference at the maximum-first result of arguments
    that agree; for real arguments the two are equal. -/
theorem algebraic : Cert.algebraic_KernelIdeal_ReferenceIdeal := by
  intro m ρ m' ρ' hpre hagree
  refine ⟨fun c => Cert.KernelIdeal.Region.result m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  have hreal : Cert.Spec.IsReal (Cert.KernelIdeal.BlockRead.args m c) := Cert.Finite.isReal_of_pre _ (hpre c)
  have hargs : Cert.ReferenceIdeal.RefValue.args m' c = Cert.KernelIdeal.BlockRead.args m c := by
    obtain ⟨h0, h1, h2, h3, h4, h5, h6, h7, h8, h9, h10⟩ := hagree c
    unfold Cert.ReferenceIdeal.RefValue.args Cert.KernelIdeal.BlockRead.args
    rw [h0, h1, h2, h3, h4, h5, h6, h7, h8, h9, h10]
  refine (Cert.ReferenceIdeal.RefValue.res_eq m' c).trans ?_
  rw [hargs]
  funext i
  exact (Cert.Agree.outK_eq_outR _ hreal (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
